-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x256 .f32) (main_arg1 : FVec F S10000x10000 .f32) (main_arg2 : FVec F S256x128 .f32) (main_arg3 : FVec F S128 .f32) (main_arg4 : FVec F S128x64 .f32) (main_arg5 : FVec F S64 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x256 : Shape := ⟨2, ![10000, 256]⟩
abbrev S10000x10000 : Shape := ⟨2, ![10000, 10000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S10000x64 : Shape := ⟨2, ![10000, 64]⟩
abbrev S400x10000 : Shape := ⟨2, ![400, 10000]⟩
abbrev S400x64 : Shape := ⟨2, ![400, 64]⟩
abbrev S10000x128 : Shape := ⟨2, ![10000, 128]⟩
abbrev S400x128 : Shape := ⟨2, ![400, 128]⟩

abbrev nBuf : Space → Nat
  | .hbm => 9
  | .vmem => 11
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x128, .f32⟩
  | .hbm, ⟨7, _⟩ => ⟨S1x64, .f32⟩
  | .hbm, ⟨8, _⟩ => ⟨S10000x64, .f32⟩
  | .local _ .vmem, ⟨0, _⟩ => ⟨S10000x256, .f32⟩
  | .local _ .vmem, ⟨1, _⟩ => ⟨S256x128, .f32⟩
  | .local _ .vmem, ⟨2, _⟩ => ⟨S1x128, .f32⟩
  | .local _ .vmem, ⟨3, _⟩ => ⟨S128x64, .f32⟩
  | .local _ .vmem, ⟨4, _⟩ => ⟨S1x64, .f32⟩
  | .local _ .vmem, ⟨5, _⟩ => ⟨S400x10000, .f32⟩
  | .local _ .vmem, ⟨6, _⟩ => ⟨S400x10000, .f32⟩
  | .local _ .vmem, ⟨7, _⟩ => ⟨S400x64, .f32⟩
  | .local _ .vmem, ⟨8, _⟩ => ⟨S400x64, .f32⟩
  | .local _ .vmem, ⟨9, _⟩ => ⟨S10000x128, .bf16⟩
  | .local _ .vmem, ⟨10, _⟩ => ⟨S10000x64, .bf16⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c25_i32 : BitVec 32 := 25#32
  let v5 : BitVec 1 := Scalar.cmpi .slt arg0 c25_i32
  let v6 : BitVec 32 := Scalar.extui v5
  let c0_i32_2 : BitVec 32 := 0#32
  let v7 : BitVec 1 := Scalar.cmpi .ne v6 c0_i32_2
  v7

def k0_off1 (i : grid0.Coords) : Fin 2 → Nat :=
  let arg0 : BitVec 32 := BitVec.ofNat 32 (i 0).val
  let c400_i32 : BitVec 32 := 400#32
  let v22 : BitVec 32 := Scalar.muli arg0 c400_i32
  let v23 : Index := Scalar.indexCast v22
  let c0_13 : Index := 0#32
  ![v23.toNat, 0]
def k0_cond3 (i : grid0.Coords) : BitVec 1 :=
  let arg0 : BitVec 32 := BitVec.ofNat 32 (i 0).val
  let c25_i32_3 : BitVec 32 := 25#32
  let v8 : BitVec 1 := Scalar.cmpi .sge arg0 c25_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c25_i32 : BitVec 32 := 25#32
  let v0 : BitVec 1 := Scalar.cmpi .slt arg0 c25_i32
  let c25_i32_0 : BitVec 32 := 25#32
  let v1 : BitVec 32 := Scalar.subi arg0 c25_i32_0
  let v2 : BitVec 32 := Scalar.select v0 arg0 v1
  let c0_i32 : BitVec 32 := 0#32
  let c0_i32_1 : BitVec 32 := 0#32
  ![v2.toNat, c0_i32.toNat]

def cc0_transform_6 (i : grid0.Coords) : Fin 2 → Nat :=
  let arg0 : BitVec 32 := BitVec.ofNat 32 (i 0).val
  let c25_i32 : BitVec 32 := 25#32
  let v0 : BitVec 1 := Scalar.cmpi .slt arg0 c25_i32
  let c25_i32_0 : BitVec 32 := 25#32
  let v1 : BitVec 32 := Scalar.subi arg0 c25_i32_0
  let c0_i32 : BitVec 32 := 0#32
  let v2 : BitVec 32 := Scalar.select v0 c0_i32 v1
  let c0_i32_1 : BitVec 32 := 0#32
  let c0_i32_2 : BitVec 32 := 0#32
  ![v2.toNat, c0_i32_1.toNat]

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x10000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S128_S1x128 : S128.ShapeCasts S1x128
  shapeCasts_S64_S1x64 : S64.ShapeCasts S1x64
  inb_S10000x256_S10000x256_0_0 : ∀ a, (![0, 0] : Fin 2 → Nat) a + S10000x256.size a ≤ S10000x256.size a
  h_S10000x256 : 0 < S10000x256.numel
  inb_S256x128_S256x128_0_0 : ∀ a, (![0, 0] : Fin 2 → Nat) a + S256x128.size a ≤ S256x128.size a
  h_S256x128 : 0 < S256x128.numel
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S128x64_S128x64_0_0 : ∀ a, (![0, 0] : Fin 2 → Nat) a + S128x64.size a ≤ S128x64.size a
  h_S128x64 : 0 < S128x64.numel
  h_S400x64 : 0 < S400x64.numel
  shapeCasts_S400x64_S400x64 : S400x64.ShapeCasts S400x64
  inb_S10000x64_S10000x64_0_0 : ∀ a, (![0, 0] : Fin 2 → Nat) a + S10000x64.size a ≤ S10000x64.size a
  h_S10000x64 : 0 < S10000x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S400x64_S400x64_0_0 : ∀ a, (![0, 0] : Fin 2 → Nat) a + S400x64.size a ≤ S400x64.size a
  dot_S10000x256_S256x128_S10000x128_1_0_0_1_n_n_wf : DotDims.WF S10000x256 S256x128 S10000x128 [1] [0] [0] [1] [] []
  dot_S400x10000_S10000x128_S400x128_1_0_0_1_n_n_wf : DotDims.WF S400x10000 S10000x128 S400x128 [1] [0] [0] [1] [] []
  dot_S400x128_S128x64_S400x64_1_0_0_1_n_n_wf : DotDims.WF S400x128 S128x64 S400x64 [1] [0] [0] [1] [] []
  dot_S400x10000_S10000x64_S400x64_1_0_0_1_n_n_wf : DotDims.WF S400x10000 S10000x64 S400x64 [1] [0] [0] [1] [] []
  hrank0 : 0 < grid0.rank
  k0_off1_inb : ∀ i : grid0.Coords, ∀ (k0_h2 : k0_cond2 i = 1#1), ∀ a, (k0_off1 i) a + S400x64.size a ≤ S10000x64.size a
  k0_off1_packedbf16 : ∀ i : grid0.Coords, ∀ (k0_h2 : k0_cond2 i = 1#1), (Rect.unit (s := S10000x64) (k0_off1 i) S400x64.size (k0_off1_inb i k0_h2)).PackedRows (EltTy.packing .bf16)
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S10000x256.size a
  hwx0_0 : ∀ i : grid0.Coords, EltTy.bits .f32 = 32 ∨ (Rect.block (s := S10000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x10000.size a ≤ S10000x10000.size a
  hwx0_5 : ∀ i : grid0.Coords, EltTy.bits .f32 = 32 ∨ (Rect.block (s := S10000x10000) S400x10000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x64.size a ≤ S10000x64.size a
  hwx0_6 : ∀ i : grid0.Coords, EltTy.bits .f32 = 32 ∨ (Rect.block (s := S10000x64) S400x64.size (cc0_transform_6 i) (hinb0_6 i)).WholeWords (EltTy.packing .f32)

variable [Facts₀]

def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.ofSpec (Memref.whole main_arg0) S10000x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S400x10000.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S400x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x256 : Shape := ⟨2, ![10000, 256]⟩
abbrev S10000x10000 : Shape := ⟨2, ![10000, 10000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S10000x128 : Shape := ⟨2, ![10000, 128]⟩
abbrev S1x128 : Shape := ⟨2, ![1, 128]⟩
abbrev S_ : Shape := ⟨0, ![]⟩
abbrev S10000x64 : Shape := ⟨2, ![10000, 64]⟩
abbrev S1x64 : Shape := ⟨2, ![1, 64]⟩

abbrev nBuf : Space → Nat
  | .hbm => 19
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x64, .f32⟩
  | .hbm, ⟨15, _⟩ => ⟨S10000x64, .f32⟩
  | .hbm, ⟨16, _⟩ => ⟨S1x64, .f32⟩
  | .hbm, ⟨17, _⟩ => ⟨S10000x64, .f32⟩
  | .hbm, ⟨18, _⟩ => ⟨S10000x64, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  dot_S10000x256_S256x128_S10000x128_1_0_0_1_n_n_wf : DotDims.WF S10000x256 S256x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.LayerStepsWord.lean ====
/-
  The fused body of the two-layer network at one grid point, case by case. The grid has 50 points: the first
  25 each take one block of 400 rows of the adjacency matrix through the first layer and the second projection and
  keep the 400 resulting rows in a scratch array; the last 25 each take one block of rows through the second
  propagation against that scratch array, now complete, and store one block of the result. The very first point also
  fills another scratch array with the projected features x · w1, which every later point of the first half reads.
  So a point is in one of three cases: the first point (A), the other points of the first half (B), the second half (C).
  Here each case's run: from the staging buffers at the blocks' contents and the two scratch arrays at stated contents,
  the body runs and leaves the scratch arrays and the output block with the pieces listed.
-/
import proofs.«160591_g55490977464611_cont_9to1_m_229_22_alg».proof.Proof.Gen.Kernel.Frame
import proofs.«160591_g55490977464611_cont_9to1_m_229_22_alg».proof.Proof.Gen.Kernel.Skeleton
import Idealize.ShloMosaic.Lib.WritesUnit

set_option maxRecDepth 16384

noncomputable section

namespace Cert.Kernel.Steps

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three branch conditions, decided over the grid -/

/-- The body's first branch is taken: the point is the first. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- The second branch is taken: the point is in the first half. -/
abbrev inFirstHalf (i : grid0.Coords) : Prop := k0_cond2 i = 1#1
theorem inFirstHalf_iff : ∀ t : Fin cfg0.N, inFirstHalf (grid0.coords t) ↔ t.val < 25 :=
  (by decide +kernel : ∀ t : Fin grid0.N, inFirstHalf (grid0.coords t) ↔ t.val < 25)

/-- The third branch is taken: the point is in the second half. -/
abbrev inSecondHalf (i : grid0.Coords) : Prop := k0_cond3 i = 1#1
theorem inSecondHalf_iff : ∀ t : Fin cfg0.N, inSecondHalf (grid0.coords t) ↔ 25 ≤ t.val :=
  (by decide +kernel : ∀ t : Fin grid0.N, inSecondHalf (grid0.coords t) ↔ 25 ≤ t.val)

/-- The rows a point of the first half stores into the scratch array: 400 rows from row 400 · t. -/
theorem sliceRows : ∀ t : Fin cfg0.N, t.val < 25 → k0_off1 (grid0.coords t) = ![400 * t.val, 0] :=
  (by decide +kernel : ∀ t : Fin grid0.N, t.val < 25 → k0_off1 (grid0.coords t) = ![400 * t.val, 0])

/-! ## The staging buffers at a point, and the two scratch arrays -/

abbrev ms0 (t : Fin cfg0.N) : Memref sig .tc .vmem S10000x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S400x10000 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x64 .f32 := win0_6.stage (cfg0.slots t 6)
abbrev hs6 (t : Fin cfg0.N) : (ms6 t).IsWhole := hstage0_6 ((cfg0.slots t 6).cast nbuf0_6)
/-- The scratch array of the projected features and the scratch array of the second projection. -/
abbrev projM : Memref sig .tc .vmem S10000x128 .bf16 := Memref.whole cc0_scratch0
abbrev mixM : Memref sig .tc .vmem S10000x64 .bf16 := Memref.whole cc0_scratch1

/-- Between points the region holds, besides the windows, the two scratch arrays and the generator register. -/
theorem scratch_eq (c : Dev nD) :
    (Pipeline.ΦA spec0 c : sProp 𝕄)
      = iprop(iprop((∃ d, owns (c : Thread nD τ) projM fullShare d) ∗ (∃ d, owns (c : Thread nD τ) mixM fullShare d)) ∗ (∃ r, prngReg c r)) := by
  unfold Pipeline.ΦA; rw [scopedRest0_eq]; simp only [projM, mixM, owns_whole]; try rfl

/-! ## Case A: the first point -/

set_option maxHeartbeats 1000000 in
/-- The first point: the projected features x · w1 are stored over the whole first scratch array, then read back for the
    first block's 400 rows of the second projection, stored into rows 0 … 399 of the second scratch array. -/
noncomputable def runFirst (c : Dev nD) (i : grid0.Coords) (arg1 : Memref sig .tc .vmem S10000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S400x10000 .f32) (harg6 : arg6.IsWhole) (arg7 : Memref sig .tc .vmem S400x64 .f32) (harg7 : arg7.IsWhole) (arg8 : Memref sig .tc .vmem S10000x128 .bf16) (harg8 : arg8.IsWhole) (arg9 : Memref sig .tc .vmem S10000x64 .bf16) (harg9 : arg9.IsWhole) (hc0 : isFirst i) (hc1 : inFirstHalf i) (hc2 : ¬inSecondHalf i)
    (x0 : Vec F S10000x256 .f32) (x1 : Vec F S256x128 .f32) (x2 : Vec F S1x128 .f32) (x3 : Vec F S128x64 .f32) (x4 : Vec F S1x64 .f32) (x5 : Vec F S400x10000 .f32) (xs1 : Vec F S10000x64 .bf16) :
    (LP : List (View.Piece (Elt F) S10000x128 .bf16)) ×' (LM : List (View.Piece (Elt F) S10000x64 .bf16)) ×'
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg8 fullShare d) ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg8.view.loc (c : Thread nD τ) ↦[arg8.view.set]{fullShare} arg8.view.writes (Elt F) f LP) ∗ (arg9.view.loc (c : Thread nD τ) ↦[arg9.view.set]{fullShare} arg9.view.writes (Elt F) (harg9.unread xs1) LM)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9) K := by
  refine ⟨?_, ?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexact HS1

/-! ## Case B: the other points of the first half -/

set_option maxHeartbeats 1000000 in
/-- A later point of the first half: the block's 400 rows of the second projection, from the projected features the
    first scratch array holds, are stored into the block's rows of the second scratch array. -/
noncomputable def runFirstHalf (c : Dev nD) (i : grid0.Coords) (arg1 : Memref sig .tc .vmem S10000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S400x10000 .f32) (harg6 : arg6.IsWhole) (arg7 : Memref sig .tc .vmem S400x64 .f32) (harg7 : arg7.IsWhole) (arg8 : Memref sig .tc .vmem S10000x128 .bf16) (harg8 : arg8.IsWhole) (arg9 : Memref sig .tc .vmem S10000x64 .bf16) (harg9 : arg9.IsWhole) (hc0 : ¬isFirst i) (hc1 : inFirstHalf i) (hc2 : ¬inSecondHalf i)
    (x0 : Vec F S10000x256 .f32) (x1 : Vec F S256x128 .f32) (x2 : Vec F S1x128 .f32) (x3 : Vec F S128x64 .f32) (x4 : Vec F S1x64 .f32) (x5 : Vec F S400x10000 .f32) (xs0 : Vec F S10000x128 .bf16) (xs1 : Vec F S10000x64 .bf16) :
    (LM : List (View.Piece (Elt F) S10000x64 .bf16)) ×'
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg8 fullShare xs0 ∗ (arg9.view.loc (c : Thread nD τ) ↦[arg9.view.set]{fullShare} arg9.view.writes (Elt F) (harg9.unread xs1) LM)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9) K := by
  refine ⟨?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0; obtain rfl := harg9.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]
    · iexists _; isplitr; · ipureintro; exact harg8.read_unread _
      iexact HS0
    iexact HS1

/-! ## Case C: the second half -/

set_option maxHeartbeats 1000000 in
/-- A point of the second half: the block's 400 rows of the result, from the second projection the second scratch
    array holds, are stored over the whole output block. -/
noncomputable def runSecondHalf (c : Dev nD) (i : grid0.Coords) (arg1 : Memref sig .tc .vmem S10000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S400x10000 .f32) (harg6 : arg6.IsWhole) (arg7 : Memref sig .tc .vmem S400x64 .f32) (harg7 : arg7.IsWhole) (arg8 : Memref sig .tc .vmem S10000x128 .bf16) (harg8 : arg8.IsWhole) (arg9 : Memref sig .tc .vmem S10000x64 .bf16) (harg9 : arg9.IsWhole) (hc0 : ¬isFirst i) (hc1 : ¬inFirstHalf i) (hc2 : inSecondHalf i)
    (x0 : Vec F S10000x256 .f32) (x1 : Vec F S256x128 .f32) (x2 : Vec F S1x128 .f32) (x3 : Vec F S128x64 .f32) (x4 : Vec F S1x64 .f32) (x5 : Vec F S400x10000 .f32) (xs1 : Vec F S10000x64 .bf16) :
    (LO : List (View.Piece (Elt F) S400x64 .f32)) ×'
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f LO) ∗ owns (c : Thread nD τ) arg9 fullShare xs1) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9) K := by
  refine ⟨?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; isplitr; · ipureintro; exact harg9.read_unread _
    iexact HS1

end Cert.Kernel.Steps

end
-- ==== Proof.LayerPiecesWord.lean ====
/-
  What each case's stores leave, read back. The first point's whole-array store leaves the projected features
  x · w1; a point of the first half leaves its 400 rows of the second projection in its rows of the second scratch
  array and every other row as it was; a point of the second half leaves its block of the result in the output block.
-/
import proofs.«160591_g55490977464611_cont_9to1_m_229_22_alg».proof.Proof.LayerStepsWord
import Idealize.ShloMosaic.Lib.Pipeline.Value

set_option maxRecDepth 16384

noncomputable section

namespace Cert.Kernel.Steps

open Cert.Kernel Cert.Kernel.Gen
open Idealize.ShloMosaic Idealize.ShloMosaic.TcCoe Idealize.ShloMosaic.Tactic
open Idealize.SL Idealize.SL.Sem

variable {F : FTy → Type} [FloatOps F]

/-- The origin of a rank-2 array, as the loads and stores of whole buffers spell it. -/
theorem origin2 : (![0, 0] : Fin 2 → ℕ) = fun _ => 0 := by funext a; fin_cases a <;> rfl

variable (c : Dev nD) (i : grid0.Coords) (arg1 : Memref sig .tc .vmem S10000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S400x10000 .f32) (harg6 : arg6.IsWhole) (arg7 : Memref sig .tc .vmem S400x64 .f32) (harg7 : arg7.IsWhole) (arg8 : Memref sig .tc .vmem S10000x128 .bf16) (harg8 : arg8.IsWhole) (arg9 : Memref sig .tc .vmem S10000x64 .bf16) (harg9 : arg9.IsWhole)
  (x0 : Vec F S10000x256 .f32) (x1 : Vec F S256x128 .f32) (x2 : Vec F S1x128 .f32) (x3 : Vec F S128x64 .f32) (x4 : Vec F S1x64 .f32) (x5 : Vec F S400x10000 .f32)

/-! ## The first point -/

/-- The first scratch array after the first point holds the projected features, whatever it held. -/
theorem first_leaves_proj (hc0 : isFirst i) (hc1 : inFirstHalf i) (hc2 : ¬inSecondHalf i) (xs1 : Vec F S10000x64 .bf16)
    (f : arg8.view.ty.Contents (Elt F)) :
    arg8.view.read (Elt F) (arg8.view.writes (Elt F) f (runFirst c i arg1 harg1 arg2 harg2 arg3 harg3 arg4 harg4 arg5 harg5 arg6 harg6 arg7 harg7 arg8 harg8 arg9 harg9 hc0 hc1 hc2 x0 x1 x2 x3 x4 x5 xs1).1) = k0_pay1 x0 x1 := by
  unfold runFirst; dsimp only; sl_unfold_run_names
  funext y
  refine (View.read_writes_cons_unit_of_mem arg8.view f _ _ [] y y rfl (fun a => ?_)).trans ?_
  · fin_cases a <;> simp
  · simp only [View.readAt_eq_ld, Memref.IsWhole.read_unread, View.ld_unit_zero (S := S10000x256) origin2, View.ld_unit_zero (S := S256x128) origin2]

/-- Its rows of the second scratch array hold the block's rows of the second projection, -/
theorem first_rows_mem (hc0 : isFirst i) (hc1 : inFirstHalf i) (hc2 : ¬inSecondHalf i) (xs1 : Vec F S10000x64 .bf16)
    (o : ℕ) (hoff : k0_off1 i = ![o, 0]) (y : S10000x64.Idx) (x : S400x64.Idx)
    (hx0 : (y (0 : Fin 2)).val = o + (x (0 : Fin 2)).val) (hx1 : (y (1 : Fin 2)).val = (x (1 : Fin 2)).val) :
    arg9.view.read (Elt F) (arg9.view.writes (Elt F) (harg9.unread xs1) (runFirst c i arg1 harg1 arg2 harg2 arg3 harg3 arg4 harg4 arg5 harg5 arg6 harg6 arg7 harg7 arg8 harg8 arg9 harg9 hc0 hc1 hc2 x0 x1 x2 x3 x4 x5 xs1).2.1) y
      = k0_pay3 x5 (k0_pay1 x0 x1) x2 x3 x := by
  unfold runFirst; dsimp only; sl_unfold_run_names
  refine (View.read_writes_cons_rows_of_mem arg9.view _ _ _ [] y x hoff hx0 hx1).trans ?_
  simp only [View.readAt_eq_ld, Memref.IsWhole.read_unread, View.ld_unit_zero (S := S400x10000) origin2, View.ld_unit_zero (S := S1x128) origin2,
    View.ld_unit_zero (S := S128x64) origin2, View.ld_unit_zero (S := S10000x256) origin2, View.ld_unit_zero (S := S256x128) origin2,
    View.readCov_unit_zero (S := S10000x128) arg8.view origin2]

/-- and every other row is as it was. -/
theorem first_rows_not_mem (hc0 : isFirst i) (hc1 : inFirstHalf i) (hc2 : ¬inSecondHalf i) (xs1 : Vec F S10000x64 .bf16)
    (o : ℕ) (hoff : k0_off1 i = ![o, 0]) (y : S10000x64.Idx)
    (h : (y (0 : Fin 2)).val < o ∨ o + 400 ≤ (y (0 : Fin 2)).val) :
    arg9.view.read (Elt F) (arg9.view.writes (Elt F) (harg9.unread xs1) (runFirst c i arg1 harg1 arg2 harg2 arg3 harg3 arg4 harg4 arg5 harg5 arg6 harg6 arg7 harg7 arg8 harg8 arg9 harg9 hc0 hc1 hc2 x0 x1 x2 x3 x4 x5 xs1).2.1) y
      = xs1 y := by
  unfold runFirst; dsimp only
  refine (View.read_writes_cons_rows_of_not_mem arg9.view _ _ _ [] y hoff (W := 400) rfl h).trans ?_
  rw [View.writes_nil, harg9.read_unread]

/-! ## The other points of the first half -/

theorem half_rows_mem (hc0 : ¬isFirst i) (hc1 : inFirstHalf i) (hc2 : ¬inSecondHalf i) (xs0 : Vec F S10000x128 .bf16) (xs1 : Vec F S10000x64 .bf16)
    (o : ℕ) (hoff : k0_off1 i = ![o, 0]) (y : S10000x64.Idx) (x : S400x64.Idx)
    (hx0 : (y (0 : Fin 2)).val = o + (x (0 : Fin 2)).val) (hx1 : (y (1 : Fin 2)).val = (x (1 : Fin 2)).val) :
    arg9.view.read (Elt F) (arg9.view.writes (Elt F) (harg9.unread xs1) (runFirstHalf c i arg1 harg1 arg2 harg2 arg3 harg3 arg4 harg4 arg5 harg5 arg6 harg6 arg7 harg7 arg8 harg8 arg9 harg9 hc0 hc1 hc2 x0 x1 x2 x3 x4 x5 xs0 xs1).1) y
      = k0_pay3 x5 xs0 x2 x3 x := by
  unfold runFirstHalf; dsimp only; sl_unfold_run_names
  refine (View.read_writes_cons_rows_of_mem arg9.view _ _ _ [] y x hoff hx0 hx1).trans ?_
  simp only [View.readAt_eq_ld, Memref.IsWhole.read_unread, View.ld_unit_zero (S := S400x10000) origin2, View.ld_unit_zero (S := S1x128) origin2,
    View.ld_unit_zero (S := S128x64) origin2, View.ld_unit_zero (S := S10000x128) origin2]

theorem half_rows_not_mem (hc0 : ¬isFirst i) (hc1 : inFirstHalf i) (hc2 : ¬inSecondHalf i) (xs0 : Vec F S10000x128 .bf16) (xs1 : Vec F S10000x64 .bf16)
    (o : ℕ) (hoff : k0_off1 i = ![o, 0]) (y : S10000x64.Idx)
    (h : (y (0 : Fin 2)).val < o ∨ o + 400 ≤ (y (0 : Fin 2)).val) :
    arg9.view.read (Elt F) (arg9.view.writes (Elt F) (harg9.unread xs1) (runFirstHalf c i arg1 harg1 arg2 harg2 arg3 harg3 arg4 harg4 arg5 harg5 arg6 harg6 arg7 harg7 arg8 harg8 arg9 harg9 hc0 hc1 hc2 x0 x1 x2 x3 x4 x5 xs0 xs1).1) y
      = xs1 y := by
  unfold runFirstHalf; dsimp only
  refine (View.read_writes_cons_rows_of_not_mem arg9.view _ _ _ [] y hoff (W := 400) rfl h).trans ?_
  rw [View.writes_nil, harg9.read_unread]

/-! ## The second half -/

/-- The output block after a point of the second half holds the block's rows of the result, whatever it held. -/
theorem second_leaves_out (hc0 : ¬isFirst i) (hc1 : ¬inFirstHalf i) (hc2 : inSecondHalf i) (xs1 : Vec F S10000x64 .bf16)
    (f : arg7.view.ty.Contents (Elt F)) :
    arg7.view.read (Elt F) (arg7.view.writes (Elt F) f (runSecondHalf c i arg1 harg1 arg2 harg2 arg3 harg3 arg4 harg4 arg5 harg5 arg6 harg6 arg7 harg7 arg8 harg8 arg9 harg9 hc0 hc1 hc2 x0 x1 x2 x3 x4 x5 xs1).1) = k0_pay4 x5 xs1 x4 := by
  unfold runSecondHalf; dsimp only; sl_unfold_run_names
  funext y
  refine (View.read_writes_cons_unit_of_mem arg7.view f _ _ [] y y rfl (fun a => ?_)).trans ?_
  · fin_cases a <;> simp
  · simp only [View.readAt_eq_ld, Memref.IsWhole.read_unread, View.ld_unit_zero (S := S400x10000) origin2, View.ld_unit_zero (S := S10000x64) origin2,
      View.ld_unit_zero (S := S1x64) origin2]

end Cert.Kernel.Steps

end
-- ==== Proof.LayerValuesWord.lean ====
/-
  The arrays the fused body builds across the grid, as functions of the blocks the windows present.
  The projected features are what the first point stores: one whole array. The second projection is built 400 rows at
  a time, block t by point t of the first half, each block from the adjacency matrix's rows of that block and the
  projected features; row k of the whole is row k mod 400 of block k / 400. A point t of the second half computes its
  400 rows of the result from its block of the adjacency matrix and the whole second projection.
-/
import proofs.«160591_g55490977464611_cont_9to1_m_229_22_alg».proof.Proof.Gen.Kernel.Frame
import proofs.«160591_g55490977464611_cont_9to1_m_229_22_alg».proof.Proof.Gen.Kernel.Skeleton
import Idealize.ShloMosaic.Lib.ValueIdx

set_option maxRecDepth 16384

noncomputable section

namespace Cert.Kernel.Carried

open Cert.Kernel Cert.Kernel.Gen
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ) (c : Dev nD)

/-- The grid's first point. -/
abbrev firstPoint : Fin cfg0.N := ⟨0, by decide⟩

/-- The projected features x · w1, as the first point computes them from its blocks (the whole arrays). -/
def projAll : Vec F S10000x128 .bf16 := k0_pay1 (iblk m c 0 firstPoint) (iblk m c 1 firstPoint)

/-- Block t of the second projection: 400 rows, from block t of the adjacency matrix and the projected features. -/
def mixRows (t : Fin cfg0.N) : Vec F S400x64 .bf16 := k0_pay3 (iblk m c 5 t) (projAll m c) (iblk m c 2 t) (iblk m c 3 t)

/-- The block that holds row r of a 10000-row array cut into blocks of 400 rows is a point of the grid's first half. -/
theorem blockOf_lt (r : Fin 10000) : r.val / 400 < cfg0.N :=
  Nat.lt_of_lt_of_le (Nat.div_lt_of_lt_mul (show r.val < 400 * 25 from r.isLt)) (by decide)

/-- The whole second projection: row k is row k mod 400 of block k / 400. -/
def mixAll : Vec F S10000x64 .bf16 := fun y =>
  mixRows m c ⟨(y (0 : Fin 2)).val / 400, blockOf_lt (y (0 : Fin 2))⟩
    (ix2 (⟨(y (0 : Fin 2)).val % 400, Nat.mod_lt _ (by decide)⟩ : Fin 400) (y (1 : Fin 2)))

/-- The 400 rows of the result a point t of the second half computes. -/
def outRows (t : Fin cfg0.N) : Vec F S400x64 .f32 := k0_pay4 (iblk m c 5 t) (mixAll m c) (iblk m c 4 t)

end Cert.Kernel.Carried

end
-- ==== Proof.LayerCarryWord.lean ====
/-
  The grid run of the fused body: what is carried from point to point, and the body's obligation at every point.
  After the first point the first scratch array holds the projected features; after n points the rows of the first
  min(n, 25) blocks of the second scratch array hold the second projection's rows (the others are whatever they were);
  so from point 25 on the second scratch array is the whole second projection, and each later point's output block is
  its 400 rows of the result. The output window rests on block 0 through the first half and is not written back there.
-/
import proofs.«160591_g55490977464611_cont_9to1_m_229_22_alg».proof.Proof.LayerPiecesWord
import proofs.«160591_g55490977464611_cont_9to1_m_229_22_alg».proof.Proof.LayerValuesWord

set_option maxRecDepth 16384

noncomputable section

namespace Cert.Kernel.Carried

open Cert.Kernel Cert.Kernel.Gen Cert.Kernel.Steps
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule of the output window, and the inputs never resting -/

theorem out_rests : ∀ t : Fin cfg0.N, t.val < 25 → cfg0.idle 6 (grid0.coords t) = true := by decide +kernel
theorem out_stored : ∀ t : Fin cfg0.N, 25 ≤ t.val → cfg0.idle 6 (grid0.coords t) = false := by decide +kernel
theorem out_kept : ∀ t : Fin cfg0.N, t.val < 25 → (cfg0.win 6).flush t = false :=
  (by decide +kernel : ∀ t : Fin grid0.N, t.val < 25 → win0_6.flush t = false)
theorem out_written_back : ∀ t : Fin cfg0.N, 25 ≤ t.val → (cfg0.win 6).flush t = true :=
  (by decide +kernel : ∀ t : Fin grid0.N, 25 ≤ t.val → win0_6.flush t = true)
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel

/-! ## What is known of the second scratch array after n points -/

/-- The rows of the blocks below min(n, 25) of d are the second projection's. -/
def RowsKnown (c : Dev nD) (n : ℕ) (d : Vec F S10000x64 .bf16) : Prop :=
  ∀ t : Fin cfg0.N, t.val < n → t.val < 25 → ∀ (y : S10000x64.Idx) (x : S400x64.Idx),
    (y (0 : Fin 2)).val = 400 * t.val + (x (0 : Fin 2)).val → (y (1 : Fin 2)).val = (x (1 : Fin 2)).val → d y = mixRows m c t x

/-- Once all 25 blocks are known the array is the whole second projection. -/
theorem RowsKnown.complete {c : Dev nD} {n : ℕ} {d : Vec F S10000x64 .bf16} (h : RowsKnown m c n d) (hn : 25 ≤ n) : d = mixAll m c := by
  funext y
  have hy : (y (0 : Fin 2)).val < 400 * 25 := (y (0 : Fin 2)).isLt
  exact h ⟨(y (0 : Fin 2)).val / 400, blockOf_lt (y (0 : Fin 2))⟩
    (show (y (0 : Fin 2)).val / 400 < n by have := Nat.div_lt_of_lt_mul hy; omega)
    (Nat.div_lt_of_lt_mul hy) y
    (ix2 (⟨(y (0 : Fin 2)).val % 400, Nat.mod_lt _ (by decide)⟩ : Fin 400) (y (1 : Fin 2)))
    (Nat.div_add_mod _ 400).symm rfl

/-! ## The invariant between points -/

/-- Before the first point the scratch arrays hold anything; after n + 1 points the first holds the projected
    features and the second some contents whose known rows are the second projection's. -/
def carried (c : Dev nD) : (n : ℕ) → n ≤ cfg0.N → sProp 𝕄
  | 0, _ => Pipeline.ΦA spec0 c
  | n + 1, _ => iprop(iprop(owns (c : Thread nD τ) projM fullShare (projAll m c) ∗ (∃ d, ⌜RowsKnown m c (n + 1) d⌝ ∗ owns (c : Thread nD τ) mixM fullShare d)) ∗ (∃ r, prngReg c r))

theorem carried_zero (c : Dev nD) (n : ℕ) (h : n ≤ cfg0.N) (hz : n = 0) : carried m c n h = Pipeline.ΦA spec0 c := by
  subst hz; rfl

theorem carried_succ (c : Dev nD) (n : ℕ) (hn : n + 1 ≤ cfg0.N) :
    carried m c (n + 1) hn = iprop(iprop(owns (c : Thread nD τ) projM fullShare (projAll m c) ∗ (∃ d, ⌜RowsKnown m c (n + 1) d⌝ ∗ owns (c : Thread nD τ) mixM fullShare d)) ∗ (∃ r, prngReg c r)) := rfl

theorem carried_pos (c : Dev nD) (n : ℕ) (h : n ≤ cfg0.N) (hz : n ≠ 0) :
    carried m c n h = iprop(iprop(owns (c : Thread nD τ) projM fullShare (projAll m c) ∗ (∃ d, ⌜RowsKnown m c n d⌝ ∗ owns (c : Thread nD τ) mixM fullShare d)) ∗ (∃ r, prngReg c r)) := by
  cases n with
  | zero => exact absurd rfl hz
  | succ n => rfl

/-! ## The proof data of the grid run -/

/-- Each input window's buffer holds its block after the body; the output block holds the point's rows of the result
    (consulted only at the points of the second half). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outRows m c t
  Φ t := carried m c t.val (Nat.le_of_lt_succ t.isLt)
  q _ := fullShare
  owed _ := 0

theorem A_eq (c : Dev nD) (w : Fin cfg0.W) : (dats m 0 c).A w = V m c (Pipeline.arrRef spec0 w) := by
  dsimp only [dats]

theorem carried_castSucc (c : Dev nD) (t : Fin cfg0.N) :
    (dats m 0 c).Φ t.castSucc = carried m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outRows m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The body's obligation at a point -/

/-- What the body is handed at point t: the invariant, nothing owed, every window's buffer at what it then holds. -/
def handed (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- What it returns. -/
def returned (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-! ## The obligation's two sides, window by window -/

theorem owes_succ (c : Dev nD) (t : Fin cfg0.N) : (dats m 0 c).owesAt () t.succ = (dats m 0 c).owesAt () t.castSucc := rfl

theorem carried_at_succ (c : Dev nD) (t : Fin cfg0.N) :
    (dats m 0 c).Φ t.succ = iprop(iprop(owns (c : Thread nD τ) projM fullShare (projAll m c) ∗ (∃ d, ⌜RowsKnown m c (t.val + 1) d⌝ ∗ owns (c : Thread nD τ) mixM fullShare d)) ∗ (∃ r, prngReg c r)) := rfl

theorem leaves_0 (c : Dev nD) (t : Fin cfg0.N) : (dats m 0 c).leavesExact 0 t = owns (c : Thread nD τ) (ms0 t) fullShare (iblk m c 0 t) := by
  unfold Dat.leavesExact; rw [live0 t, after_0]
theorem leaves_1 (c : Dev nD) (t : Fin cfg0.N) : (dats m 0 c).leavesExact 1 t = owns (c : Thread nD τ) (ms1 t) fullShare (iblk m c 1 t) := by
  unfold Dat.leavesExact; rw [live1 t, after_1]
theorem leaves_2 (c : Dev nD) (t : Fin cfg0.N) : (dats m 0 c).leavesExact 2 t = owns (c : Thread nD τ) (ms2 t) fullShare (iblk m c 2 t) := by
  unfold Dat.leavesExact; rw [live2 t, after_2]
theorem leaves_3 (c : Dev nD) (t : Fin cfg0.N) : (dats m 0 c).leavesExact 3 t = owns (c : Thread nD τ) (ms3 t) fullShare (iblk m c 3 t) := by
  unfold Dat.leavesExact; rw [live3 t, after_3]
theorem leaves_4 (c : Dev nD) (t : Fin cfg0.N) : (dats m 0 c).leavesExact 4 t = owns (c : Thread nD τ) (ms4 t) fullShare (iblk m c 4 t) := by
  unfold Dat.leavesExact; rw [live4 t, after_4]
theorem leaves_5 (c : Dev nD) (t : Fin cfg0.N) : (dats m 0 c).leavesExact 5 t = owns (c : Thread nD τ) (ms5 t) fullShare (iblk m c 5 t) := by
  unfold Dat.leavesExact; rw [live5 t, after_5]
/-- In the first half the output block rests: it is handed back as found. -/
theorem leaves_6_rest (c : Dev nD) (t : Fin cfg0.N) (h : t.val < 25) :
    (dats m 0 c).leavesExact 6 t = iprop(∃ d, owns (c : Thread nD τ) (ms6 t) fullShare ((dats m 0 c).before 6 t d)) :=
  Dat.leavesExact_idle (dats m 0 c) 6 t (out_rests t h) (out_kept t h)
/-- In the second half it holds the point's rows of the result. -/
theorem leaves_6_stored (c : Dev nD) (t : Fin cfg0.N) (h : 25 ≤ t.val) :
    (dats m 0 c).leavesExact 6 t = owns (c : Thread nD τ) (ms6 t) fullShare (outRows m c t) := by
  unfold Dat.leavesExact; rw [out_stored t h, after_6]

end Cert.Kernel.Carried

end
-- ==== Proof.LayerPointsWord.lean ====
/-
  The fused body's obligation at a grid point, in each of its three cases: from the invariant and the windows' blocks
  before the point to the invariant and the blocks after it. At the first point the scratch arrays hold anything and
  end at the projected features and the first block's rows of the second projection; at a later point of the first
  half one more block of rows becomes known, the rows known before being left as they were; at a point of the second
  half every block is known, so the second scratch array is the whole second projection and the output block is stored
  with the point's rows of the result.
-/
import proofs.«160591_g55490977464611_cont_9to1_m_229_22_alg».proof.Proof.LayerCarryWord

set_option maxRecDepth 16384

noncomputable section

namespace Cert.Kernel.Carried

open Cert.Kernel Cert.Kernel.Gen Cert.Kernel.Steps
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1500000 in
/-- The first point: from scratch arrays holding anything to the projected features and the first block's rows. -/
theorem at_first (c : Dev nD) (t : Fin cfg0.N) (hz : t.val = 0) : handed m c t ⊢ wp frame (wpE (defs₀ (F := F)) Variants.none c none) Set.univ (bodyAt0 t) (fun _ => returned m c t) := by
  have h1 : t.val < 25 := by omega
  unfold handed returned bodyAt0
  simp only [before_0, before_1, before_2, before_3, before_4, before_5]
  rw [owes_succ, carried_at_succ, leaves_0, leaves_1, leaves_2, leaves_3, leaves_4, leaves_5, leaves_6_rest m c t h1, carried_castSucc m c t]
  have hoff := sliceRows t h1
  have hc0 : isFirst (grid0.coords t) := (isFirst_iff t).mpr hz
  have hc1 : inFirstHalf (grid0.coords t) := (inFirstHalf_iff t).mpr h1
  have hc2 : ¬inSecondHalf (grid0.coords t) := fun h => absurd ((inSecondHalf_iff t).mp h) (by omega)
  rw [carried_zero m c _ _ hz, scratch_eq]
  iintro ⟨⟨⟨HS0, ⟨%d1, HS1⟩⟩, Hg⟩, Ho, ⟨%d0', H0⟩, ⟨%d1', H1⟩, ⟨%d2', H2⟩, ⟨%d3', H3⟩, ⟨%d4', H4⟩, ⟨%d5', H5⟩, ⟨%d6, H6⟩⟩
  iapply ((runFirst c (grid0.coords t) (ms0 t) (hs0 t) (ms1 t) (hs1 t) (ms2 t) (hs2 t) (ms3 t) (hs3 t) (ms4 t) (hs4 t) (ms5 t) (hs5 t) (ms6 t) (hs6 t) projM (Memref.isWhole_whole _) mixM (Memref.isWhole_whole _) hc0 hc1 hc2 (iblk m c 0 t) (iblk m c 1 t) (iblk m c 2 t) (iblk m c 3 t) (iblk m c 4 t) (iblk m c 5 t) d1).2.2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, ⟨%f, HS0⟩, HS1⟩
  isplitl [HS0 HS1 Hg]
  · isplitl [HS0 HS1]
    · isplitl [HS0]
      · unfold owns; iexists _; isplitr
        swap; · iexact HS0
        ipureintro
        refine (first_leaves_proj c (grid0.coords t) (ms0 t) (hs0 t) (ms1 t) (hs1 t) (ms2 t) (hs2 t) (ms3 t) (hs3 t) (ms4 t) (hs4 t) (ms5 t) (hs5 t) (ms6 t) (hs6 t) projM (Memref.isWhole_whole _) mixM (Memref.isWhole_whole _) (iblk m c 0 t) (iblk m c 1 t) (iblk m c 2 t) (iblk m c 3 t) (iblk m c 4 t) (iblk m c 5 t) hc0 hc1 hc2 d1 f).trans ?_
        have e : t = firstPoint := Fin.ext hz
        subst e; rfl
      · iexists _; isplitr
        swap
        · unfold owns; iexists _; isplitr
          swap; · iexact HS1
          ipureintro; rfl
        ipureintro
        intro t' ht' _ y x hx0 hx1
        have e : t' = t := Fin.ext (by omega)
        subst t'
        refine (first_rows_mem c (grid0.coords t) (ms0 t) (hs0 t) (ms1 t) (hs1 t) (ms2 t) (hs2 t) (ms3 t) (hs3 t) (ms4 t) (hs4 t) (ms5 t) (hs5 t) (ms6 t) (hs6 t) projM (Memref.isWhole_whole _) mixM (Memref.isWhole_whole _) (iblk m c 0 t) (iblk m c 1 t) (iblk m c 2 t) (iblk m c 3 t) (iblk m c 4 t) (iblk m c 5 t) hc0 hc1 hc2 d1 (400 * t.val) hoff y x hx0 hx1).trans ?_
        have e : t = firstPoint := Fin.ext hz
        subst e; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

set_option maxHeartbeats 1500000 in
/-- A later point of the first half: one more block of rows of the second projection becomes known. -/
theorem at_first_half (c : Dev nD) (t : Fin cfg0.N) (hz : t.val ≠ 0) (h1 : t.val < 25) : handed m c t ⊢ wp frame (wpE (defs₀ (F := F)) Variants.none c none) Set.univ (bodyAt0 t) (fun _ => returned m c t) := by
  unfold handed returned bodyAt0
  simp only [before_0, before_1, before_2, before_3, before_4, before_5]
  rw [owes_succ, carried_at_succ, leaves_0, leaves_1, leaves_2, leaves_3, leaves_4, leaves_5, leaves_6_rest m c t h1, carried_castSucc m c t]
  have hoff := sliceRows t h1
  have hc0 : ¬isFirst (grid0.coords t) := fun h => hz ((isFirst_iff t).mp h)
  have hc1 : inFirstHalf (grid0.coords t) := (inFirstHalf_iff t).mpr h1
  have hc2 : ¬inSecondHalf (grid0.coords t) := fun h => absurd ((inSecondHalf_iff t).mp h) (by omega)
  rw [carried_pos m c _ _ hz]
  iintro ⟨⟨⟨HS0, ⟨%d1, %hd1, HS1⟩⟩, Hg⟩, Ho, ⟨%d0', H0⟩, ⟨%d1', H1⟩, ⟨%d2', H2⟩, ⟨%d3', H3⟩, ⟨%d4', H4⟩, ⟨%d5', H5⟩, ⟨%d6, H6⟩⟩
  iapply ((runFirstHalf c (grid0.coords t) (ms0 t) (hs0 t) (ms1 t) (hs1 t) (ms2 t) (hs2 t) (ms3 t) (hs3 t) (ms4 t) (hs4 t) (ms5 t) (hs5 t) (ms6 t) (hs6 t) projM (Memref.isWhole_whole _) mixM (Memref.isWhole_whole _) hc0 hc1 hc2 (iblk m c 0 t) (iblk m c 1 t) (iblk m c 2 t) (iblk m c 3 t) (iblk m c 4 t) (iblk m c 5 t) (projAll m c) d1).2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      · iexists _; isplitr
        swap
        · unfold owns; iexists _; isplitr
          swap; · iexact HS1
          ipureintro; rfl
        ipureintro
        intro t' ht' h25 y x hx0 hx1
        by_cases e : t' = t
        · subst t'
          exact half_rows_mem c (grid0.coords t) (ms0 t) (hs0 t) (ms1 t) (hs1 t) (ms2 t) (hs2 t) (ms3 t) (hs3 t) (ms4 t) (hs4 t) (ms5 t) (hs5 t) (ms6 t) (hs6 t) projM (Memref.isWhole_whole _) mixM (Memref.isWhole_whole _) (iblk m c 0 t) (iblk m c 1 t) (iblk m c 2 t) (iblk m c 3 t) (iblk m c 4 t) (iblk m c 5 t) hc0 hc1 hc2 (projAll m c) d1 (400 * t.val) hoff y x hx0 hx1
        · have hlt : t'.val < t.val := by
            have : t'.val ≠ t.val := fun h => e (Fin.ext h)
            omega
          have hx : (x (0 : Fin 2)).val < 400 := (x (0 : Fin 2)).isLt
          refine (half_rows_not_mem c (grid0.coords t) (ms0 t) (hs0 t) (ms1 t) (hs1 t) (ms2 t) (hs2 t) (ms3 t) (hs3 t) (ms4 t) (hs4 t) (ms5 t) (hs5 t) (ms6 t) (hs6 t) projM (Memref.isWhole_whole _) mixM (Memref.isWhole_whole _) (iblk m c 0 t) (iblk m c 1 t) (iblk m c 2 t) (iblk m c 3 t) (iblk m c 4 t) (iblk m c 5 t) hc0 hc1 hc2 (projAll m c) d1 (400 * t.val) hoff y (Or.inl (by omega))).trans ?_
          exact hd1 t' hlt h25 y x hx0 hx1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

set_option maxHeartbeats 1500000 in
/-- A point of the second half: the second scratch array is the whole second projection, and the output block is
    stored with the point's rows of the result. -/
theorem at_second_half (c : Dev nD) (t : Fin cfg0.N) (h2 : 25 ≤ t.val) : handed m c t ⊢ wp frame (wpE (defs₀ (F := F)) Variants.none c none) Set.univ (bodyAt0 t) (fun _ => returned m c t) := by
  unfold handed returned bodyAt0
  simp only [before_0, before_1, before_2, before_3, before_4, before_5]
  rw [owes_succ, carried_at_succ, leaves_0, leaves_1, leaves_2, leaves_3, leaves_4, leaves_5, leaves_6_stored m c t h2, carried_castSucc m c t]
  have hz : t.val ≠ 0 := by omega
  have hc0 : ¬isFirst (grid0.coords t) := fun h => hz ((isFirst_iff t).mp h)
  have hc1 : ¬inFirstHalf (grid0.coords t) := fun h => absurd ((inFirstHalf_iff t).mp h) (by omega)
  have hc2 : inSecondHalf (grid0.coords t) := (inSecondHalf_iff t).mpr h2
  rw [carried_pos m c _ _ hz]
  iintro ⟨⟨⟨HS0, ⟨%d1, %hd1, HS1⟩⟩, Hg⟩, Ho, ⟨%d0', H0⟩, ⟨%d1', H1⟩, ⟨%d2', H2⟩, ⟨%d3', H3⟩, ⟨%d4', H4⟩, ⟨%d5', H5⟩, ⟨%d6, H6⟩⟩
  have hfull : d1 = mixAll m c := hd1.complete m h2
  iapply ((runSecondHalf c (grid0.coords t) (ms0 t) (hs0 t) (ms1 t) (hs1 t) (ms2 t) (hs2 t) (ms3 t) (hs3 t) (ms4 t) (hs4 t) (ms5 t) (hs5 t) (ms6 t) (hs6 t) projM (Memref.isWhole_whole _) mixM (Memref.isWhole_whole _) hc0 hc1 hc2 (iblk m c 0 t) (iblk m c 1 t) (iblk m c 2 t) (iblk m c 3 t) (iblk m c 4 t) (iblk m c 5 t) d1).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS1]; · iexact HS1
  iintro ⟨H0, H1, H2, H3, H4, H5, ⟨%f, H6⟩, HS1⟩
  isplitl [HS0 HS1 Hg]
  · isplitl [HS0 HS1]
    · isplitl [HS0]
      · iexact HS0
      · iexists d1; isplitr
        · ipureintro; exact fun t' _ h25 => hd1 t' (by omega) h25
        iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro
  refine (second_leaves_out c (grid0.coords t) (ms0 t) (hs0 t) (ms1 t) (hs1 t) (ms2 t) (hs2 t) (ms3 t) (hs3 t) (ms4 t) (hs4 t) (ms5 t) (hs5 t) (ms6 t) (hs6 t) projM (Memref.isWhole_whole _) mixM (Memref.isWhole_whole _) (iblk m c 0 t) (iblk m c 1 t) (iblk m c 2 t) (iblk m c 3 t) (iblk m c 4 t) (iblk m c 5 t) hc0 hc1 hc2 d1 f).trans ?_
  rw [hfull]; rfl

end Cert.Kernel.Carried

end
-- ==== Proof.LayerRunWord.lean ====
/-
  The grid run of the fused body: the obligation at every point from its three cases, the invariant at the two ends,
  and the run itself — every weakly fair execution terminates, the argument arrays end as they were, and the result
  array ends at what the write-backs leave.
-/
import proofs.«160591_g55490977464611_cont_9to1_m_229_22_alg».proof.Proof.LayerPointsWord

set_option maxRecDepth 16384

noncomputable section

namespace Cert.Kernel.Carried

open Cert.Kernel Cert.Kernel.Gen Cert.Kernel.Steps
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point, by the point's case. -/
theorem body_at (c : Dev nD) (t : Fin cfg0.N) :
    handed m c t ⊢ wp frame (wpE (defs₀ (F := F)) Variants.none c none) Set.univ (bodyAt0 t) (fun _ => returned m c t) := by
  by_cases h1 : t.val < 25
  · by_cases hz : t.val = 0
    · exact at_first m c t hz
    · exact at_first_half m c t hz h1
  · exact at_second_half m c t (by omega)

/-- The library's body obligation, at every point. -/
theorem body_obligation (c : Dev nD) : BodyObligation (dats (F := F) m 0 c) (defs₀ (F := F)) Variants.none () Set.univ := fun t => by
  rw [bigSep_W0, bigSep_W0]
  exact body_at m c t

/-- What the launch hands the region is the invariant before the first point. -/
theorem hin (c : Dev nD) : Pipeline.ΦA spec0 c ⊢ (dats m 0 c).Φ 0 := by
  rw [show (dats m 0 c).Φ 0 = carried m c 0 (Nat.zero_le _) from rfl, carried_zero m c 0 _ rfl]
  try exact Idealize.SL.BI.Entails.refl _

/-- After the last point the invariant gives the scratch arrays back at whatever they hold. -/
theorem hout (c : Dev nD) : (dats m 0 c).Φ (Fin.last cfg0.N) ⊢ Pipeline.ΦA spec0 c := by
  rw [show (dats m 0 c).Φ (Fin.last cfg0.N) = carried m c (Fin.last cfg0.N).val (Nat.le_of_lt_succ (Fin.last cfg0.N).isLt) from rfl,
    carried_pos m c _ _ (by rw [Fin.val_last]; have : cfg0.N = 50 := N_0; omega), scratch_eq]
  iintro ⟨⟨HS0, ⟨%d, %hd, HS1⟩⟩, Hg⟩
  isplitl [HS0 HS1]
  · isplitl [HS0]
    · iexists _; iexact HS0
    iexists _; iexact HS1
  iexact Hg

/-! ## The run -/

set_option backward.isDefEq.respectTransparency.types false in
/-- Every weakly fair execution of the program terminates; the argument arrays end as they were and the output array
    ends at what the write-backs of the second half's points leave. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Carried

end
-- ==== Proof.LayerStepsIdeal.lean ====
/-
  The fused body of the two-layer network at one grid point, case by case. The grid has 50 points: the first
  25 each take one block of 400 rows of the adjacency matrix through the first layer and the second projection and
  keep the 400 resulting rows in a scratch array; the last 25 each take one block of rows through the second
  propagation against that scratch array, now complete, and store one block of the result. The very first point also
  fills another scratch array with the projected features x · w1, which every later point of the first half reads.
  So a point is in one of three cases: the first point (A), the other points of the first half (B), the second half (C).
  Here each case's run: from the staging buffers at the blocks' contents and the two scratch arrays at stated contents,
  the body runs and leaves the scratch arrays and the output block with the pieces listed.
-/
import proofs.«160591_g55490977464611_cont_9to1_m_229_22_alg».proof.Proof.Gen.KernelIdeal.Frame
import proofs.«160591_g55490977464611_cont_9to1_m_229_22_alg».proof.Proof.Gen.KernelIdeal.Skeleton
import Idealize.ShloMosaic.Lib.WritesUnit

set_option maxRecDepth 16384

noncomputable section

namespace Cert.KernelIdeal.Steps

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three branch conditions, decided over the grid -/

/-- The body's first branch is taken: the point is the first. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- The second branch is taken: the point is in the first half. -/
abbrev inFirstHalf (i : grid0.Coords) : Prop := k0_cond2 i = 1#1
theorem inFirstHalf_iff : ∀ t : Fin cfg0.N, inFirstHalf (grid0.coords t) ↔ t.val < 25 :=
  (by decide +kernel : ∀ t : Fin grid0.N, inFirstHalf (grid0.coords t) ↔ t.val < 25)

/-- The third branch is taken: the point is in the second half. -/
abbrev inSecondHalf (i : grid0.Coords) : Prop := k0_cond3 i = 1#1
theorem inSecondHalf_iff : ∀ t : Fin cfg0.N, inSecondHalf (grid0.coords t) ↔ 25 ≤ t.val :=
  (by decide +kernel : ∀ t : Fin grid0.N, inSecondHalf (grid0.coords t) ↔ 25 ≤ t.val)

/-- The rows a point of the first half stores into the scratch array: 400 rows from row 400 · t. -/
theorem sliceRows : ∀ t : Fin cfg0.N, t.val < 25 → k0_off1 (grid0.coords t) = ![400 * t.val, 0] :=
  (by decide +kernel : ∀ t : Fin grid0.N, t.val < 25 → k0_off1 (grid0.coords t) = ![400 * t.val, 0])

/-! ## The staging buffers at a point, and the two scratch arrays -/

abbrev ms0 (t : Fin cfg0.N) : Memref sig .tc .vmem S10000x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S400x10000 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x64 .f32 := win0_6.stage (cfg0.slots t 6)
abbrev hs6 (t : Fin cfg0.N) : (ms6 t).IsWhole := hstage0_6 ((cfg0.slots t 6).cast nbuf0_6)
/-- The scratch array of the projected features and the scratch array of the second projection. -/
abbrev projM : Memref sig .tc .vmem S10000x128 .bf16 := Memref.whole cc0_scratch0
abbrev mixM : Memref sig .tc .vmem S10000x64 .bf16 := Memref.whole cc0_scratch1

/-- Between points the region holds, besides the windows, the two scratch arrays and the generator register. -/
theorem scratch_eq (c : Dev nD) :
    (Pipeline.ΦA spec0 c : sProp 𝕄)
      = iprop(iprop((∃ d, owns (c : Thread nD τ) projM fullShare d) ∗ (∃ d, owns (c : Thread nD τ) mixM fullShare d)) ∗ (∃ r, prngReg c r)) := by
  unfold Pipeline.ΦA; rw [scopedRest0_eq]; simp only [projM, mixM, owns_whole]; try rfl

/-! ## Case A: the first point -/

set_option maxHeartbeats 1000000 in
/-- The first point: the projected features x · w1 are stored over the whole first scratch array, then read back for the
    first block's 400 rows of the second projection, stored into rows 0 … 399 of the second scratch array. -/
noncomputable def runFirst (c : Dev nD) (i : grid0.Coords) (arg1 : Memref sig .tc .vmem S10000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S400x10000 .f32) (harg6 : arg6.IsWhole) (arg7 : Memref sig .tc .vmem S400x64 .f32) (harg7 : arg7.IsWhole) (arg8 : Memref sig .tc .vmem S10000x128 .bf16) (harg8 : arg8.IsWhole) (arg9 : Memref sig .tc .vmem S10000x64 .bf16) (harg9 : arg9.IsWhole) (hc0 : isFirst i) (hc1 : inFirstHalf i) (hc2 : ¬inSecondHalf i)
    (x0 : Vec F S10000x256 .f32) (x1 : Vec F S256x128 .f32) (x2 : Vec F S1x128 .f32) (x3 : Vec F S128x64 .f32) (x4 : Vec F S1x64 .f32) (x5 : Vec F S400x10000 .f32) (xs1 : Vec F S10000x64 .bf16) :
    (LP : List (View.Piece (Elt F) S10000x128 .bf16)) ×' (LM : List (View.Piece (Elt F) S10000x64 .bf16)) ×'
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg8 fullShare d) ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg8.view.loc (c : Thread nD τ) ↦[arg8.view.set]{fullShare} arg8.view.writes (Elt F) f LP) ∗ (arg9.view.loc (c : Thread nD τ) ↦[arg9.view.set]{fullShare} arg9.view.writes (Elt F) (harg9.unread xs1) LM)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9) K := by
  refine ⟨?_, ?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexact HS1

/-! ## Case B: the other points of the first half -/

set_option maxHeartbeats 1000000 in
/-- A later point of the first half: the block's 400 rows of the second projection, from the projected features the
    first scratch array holds, are stored into the block's rows of the second scratch array. -/
noncomputable def runFirstHalf (c : Dev nD) (i : grid0.Coords) (arg1 : Memref sig .tc .vmem S10000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S400x10000 .f32) (harg6 : arg6.IsWhole) (arg7 : Memref sig .tc .vmem S400x64 .f32) (harg7 : arg7.IsWhole) (arg8 : Memref sig .tc .vmem S10000x128 .bf16) (harg8 : arg8.IsWhole) (arg9 : Memref sig .tc .vmem S10000x64 .bf16) (harg9 : arg9.IsWhole) (hc0 : ¬isFirst i) (hc1 : inFirstHalf i) (hc2 : ¬inSecondHalf i)
    (x0 : Vec F S10000x256 .f32) (x1 : Vec F S256x128 .f32) (x2 : Vec F S1x128 .f32) (x3 : Vec F S128x64 .f32) (x4 : Vec F S1x64 .f32) (x5 : Vec F S400x10000 .f32) (xs0 : Vec F S10000x128 .bf16) (xs1 : Vec F S10000x64 .bf16) :
    (LM : List (View.Piece (Elt F) S10000x64 .bf16)) ×'
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg8 fullShare xs0 ∗ (arg9.view.loc (c : Thread nD τ) ↦[arg9.view.set]{fullShare} arg9.view.writes (Elt F) (harg9.unread xs1) LM)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9) K := by
  refine ⟨?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0; obtain rfl := harg9.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]
    · iexists _; isplitr; · ipureintro; exact harg8.read_unread _
      iexact HS0
    iexact HS1

/-! ## Case C: the second half -/

set_option maxHeartbeats 1000000 in
/-- A point of the second half: the block's 400 rows of the result, from the second projection the second scratch
    array holds, are stored over the whole output block. -/
noncomputable def runSecondHalf (c : Dev nD) (i : grid0.Coords) (arg1 : Memref sig .tc .vmem S10000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S400x10000 .f32) (harg6 : arg6.IsWhole) (arg7 : Memref sig .tc .vmem S400x64 .f32) (harg7 : arg7.IsWhole) (arg8 : Memref sig .tc .vmem S10000x128 .bf16) (harg8 : arg8.IsWhole) (arg9 : Memref sig .tc .vmem S10000x64 .bf16) (harg9 : arg9.IsWhole) (hc0 : ¬isFirst i) (hc1 : ¬inFirstHalf i) (hc2 : inSecondHalf i)
    (x0 : Vec F S10000x256 .f32) (x1 : Vec F S256x128 .f32) (x2 : Vec F S1x128 .f32) (x3 : Vec F S128x64 .f32) (x4 : Vec F S1x64 .f32) (x5 : Vec F S400x10000 .f32) (xs1 : Vec F S10000x64 .bf16) :
    (LO : List (View.Piece (Elt F) S400x64 .f32)) ×'
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f LO) ∗ owns (c : Thread nD τ) arg9 fullShare xs1) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9) K := by
  refine ⟨?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; isplitr; · ipureintro; exact harg9.read_unread _
    iexact HS1

end Cert.KernelIdeal.Steps

end
-- ==== Proof.LayerPiecesIdeal.lean ====
/-
  What each case's stores leave, read back. The first point's whole-array store leaves the projected features
  x · w1; a point of the first half leaves its 400 rows of the second projection in its rows of the second scratch
  array and every other row as it was; a point of the second half leaves its block of the result in the output block.
-/
import proofs.«160591_g55490977464611_cont_9to1_m_229_22_alg».proof.Proof.LayerStepsIdeal
import Idealize.ShloMosaic.Lib.Pipeline.Value

set_option maxRecDepth 16384

noncomputable section

namespace Cert.KernelIdeal.Steps

open Cert.KernelIdeal Cert.KernelIdeal.Gen
open Idealize.ShloMosaic Idealize.ShloMosaic.TcCoe Idealize.ShloMosaic.Tactic
open Idealize.SL Idealize.SL.Sem

variable {F : FTy → Type} [FloatOps F]

/-- The origin of a rank-2 array, as the loads and stores of whole buffers spell it. -/
theorem origin2 : (![0, 0] : Fin 2 → ℕ) = fun _ => 0 := by funext a; fin_cases a <;> rfl

variable (c : Dev nD) (i : grid0.Coords) (arg1 : Memref sig .tc .vmem S10000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S400x10000 .f32) (harg6 : arg6.IsWhole) (arg7 : Memref sig .tc .vmem S400x64 .f32) (harg7 : arg7.IsWhole) (arg8 : Memref sig .tc .vmem S10000x128 .bf16) (harg8 : arg8.IsWhole) (arg9 : Memref sig .tc .vmem S10000x64 .bf16) (harg9 : arg9.IsWhole)
  (x0 : Vec F S10000x256 .f32) (x1 : Vec F S256x128 .f32) (x2 : Vec F S1x128 .f32) (x3 : Vec F S128x64 .f32) (x4 : Vec F S1x64 .f32) (x5 : Vec F S400x10000 .f32)

/-! ## The first point -/

/-- The first scratch array after the first point holds the projected features, whatever it held. -/
theorem first_leaves_proj (hc0 : isFirst i) (hc1 : inFirstHalf i) (hc2 : ¬inSecondHalf i) (xs1 : Vec F S10000x64 .bf16)
    (f : arg8.view.ty.Contents (Elt F)) :
    arg8.view.read (Elt F) (arg8.view.writes (Elt F) f (runFirst c i arg1 harg1 arg2 harg2 arg3 harg3 arg4 harg4 arg5 harg5 arg6 harg6 arg7 harg7 arg8 harg8 arg9 harg9 hc0 hc1 hc2 x0 x1 x2 x3 x4 x5 xs1).1) = k0_pay1 x0 x1 := by
  unfold runFirst; dsimp only; sl_unfold_run_names
  funext y
  refine (View.read_writes_cons_unit_of_mem arg8.view f _ _ [] y y rfl (fun a => ?_)).trans ?_
  · fin_cases a <;> simp
  · simp only [View.readAt_eq_ld, Memref.IsWhole.read_unread, View.ld_unit_zero (S := S10000x256) origin2, View.ld_unit_zero (S := S256x128) origin2]

/-- Its rows of the second scratch array hold the block's rows of the second projection, -/
theorem first_rows_mem (hc0 : isFirst i) (hc1 : inFirstHalf i) (hc2 : ¬inSecondHalf i) (xs1 : Vec F S10000x64 .bf16)
    (o : ℕ) (hoff : k0_off1 i = ![o, 0]) (y : S10000x64.Idx) (x : S400x64.Idx)
    (hx0 : (y (0 : Fin 2)).val = o + (x (0 : Fin 2)).val) (hx1 : (y (1 : Fin 2)).val = (x (1 : Fin 2)).val) :
    arg9.view.read (Elt F) (arg9.view.writes (Elt F) (harg9.unread xs1) (runFirst c i arg1 harg1 arg2 harg2 arg3 harg3 arg4 harg4 arg5 harg5 arg6 harg6 arg7 harg7 arg8 harg8 arg9 harg9 hc0 hc1 hc2 x0 x1 x2 x3 x4 x5 xs1).2.1) y
      = k0_pay3 x5 (k0_pay1 x0 x1) x2 x3 x := by
  unfold runFirst; dsimp only; sl_unfold_run_names
  refine (View.read_writes_cons_rows_of_mem arg9.view _ _ _ [] y x hoff hx0 hx1).trans ?_
  simp only [View.readAt_eq_ld, Memref.IsWhole.read_unread, View.ld_unit_zero (S := S400x10000) origin2, View.ld_unit_zero (S := S1x128) origin2,
    View.ld_unit_zero (S := S128x64) origin2, View.ld_unit_zero (S := S10000x256) origin2, View.ld_unit_zero (S := S256x128) origin2,
    View.readCov_unit_zero (S := S10000x128) arg8.view origin2]

/-- and every other row is as it was. -/
theorem first_rows_not_mem (hc0 : isFirst i) (hc1 : inFirstHalf i) (hc2 : ¬inSecondHalf i) (xs1 : Vec F S10000x64 .bf16)
    (o : ℕ) (hoff : k0_off1 i = ![o, 0]) (y : S10000x64.Idx)
    (h : (y (0 : Fin 2)).val < o ∨ o + 400 ≤ (y (0 : Fin 2)).val) :
    arg9.view.read (Elt F) (arg9.view.writes (Elt F) (harg9.unread xs1) (runFirst c i arg1 harg1 arg2 harg2 arg3 harg3 arg4 harg4 arg5 harg5 arg6 harg6 arg7 harg7 arg8 harg8 arg9 harg9 hc0 hc1 hc2 x0 x1 x2 x3 x4 x5 xs1).2.1) y
      = xs1 y := by
  unfold runFirst; dsimp only
  refine (View.read_writes_cons_rows_of_not_mem arg9.view _ _ _ [] y hoff (W := 400) rfl h).trans ?_
  rw [View.writes_nil, harg9.read_unread]

/-! ## The other points of the first half -/

theorem half_rows_mem (hc0 : ¬isFirst i) (hc1 : inFirstHalf i) (hc2 : ¬inSecondHalf i) (xs0 : Vec F S10000x128 .bf16) (xs1 : Vec F S10000x64 .bf16)
    (o : ℕ) (hoff : k0_off1 i = ![o, 0]) (y : S10000x64.Idx) (x : S400x64.Idx)
    (hx0 : (y (0 : Fin 2)).val = o + (x (0 : Fin 2)).val) (hx1 : (y (1 : Fin 2)).val = (x (1 : Fin 2)).val) :
    arg9.view.read (Elt F) (arg9.view.writes (Elt F) (harg9.unread xs1) (runFirstHalf c i arg1 harg1 arg2 harg2 arg3 harg3 arg4 harg4 arg5 harg5 arg6 harg6 arg7 harg7 arg8 harg8 arg9 harg9 hc0 hc1 hc2 x0 x1 x2 x3 x4 x5 xs0 xs1).1) y
      = k0_pay3 x5 xs0 x2 x3 x := by
  unfold runFirstHalf; dsimp only; sl_unfold_run_names
  refine (View.read_writes_cons_rows_of_mem arg9.view _ _ _ [] y x hoff hx0 hx1).trans ?_
  simp only [View.readAt_eq_ld, Memref.IsWhole.read_unread, View.ld_unit_zero (S := S400x10000) origin2, View.ld_unit_zero (S := S1x128) origin2,
    View.ld_unit_zero (S := S128x64) origin2, View.ld_unit_zero (S := S10000x128) origin2]

theorem half_rows_not_mem (hc0 : ¬isFirst i) (hc1 : inFirstHalf i) (hc2 : ¬inSecondHalf i) (xs0 : Vec F S10000x128 .bf16) (xs1 : Vec F S10000x64 .bf16)
    (o : ℕ) (hoff : k0_off1 i = ![o, 0]) (y : S10000x64.Idx)
    (h : (y (0 : Fin 2)).val < o ∨ o + 400 ≤ (y (0 : Fin 2)).val) :
    arg9.view.read (Elt F) (arg9.view.writes (Elt F) (harg9.unread xs1) (runFirstHalf c i arg1 harg1 arg2 harg2 arg3 harg3 arg4 harg4 arg5 harg5 arg6 harg6 arg7 harg7 arg8 harg8 arg9 harg9 hc0 hc1 hc2 x0 x1 x2 x3 x4 x5 xs0 xs1).1) y
      = xs1 y := by
  unfold runFirstHalf; dsimp only
  refine (View.read_writes_cons_rows_of_not_mem arg9.view _ _ _ [] y hoff (W := 400) rfl h).trans ?_
  rw [View.writes_nil, harg9.read_unread]

/-! ## The second half -/

/-- The output block after a point of the second half holds the block's rows of the result, whatever it held. -/
theorem second_leaves_out (hc0 : ¬isFirst i) (hc1 : ¬inFirstHalf i) (hc2 : inSecondHalf i) (xs1 : Vec F S10000x64 .bf16)
    (f : arg7.view.ty.Contents (Elt F)) :
    arg7.view.read (Elt F) (arg7.view.writes (Elt F) f (runSecondHalf c i arg1 harg1 arg2 harg2 arg3 harg3 arg4 harg4 arg5 harg5 arg6 harg6 arg7 harg7 arg8 harg8 arg9 harg9 hc0 hc1 hc2 x0 x1 x2 x3 x4 x5 xs1).1) = k0_pay4 x5 xs1 x4 := by
  unfold runSecondHalf; dsimp only; sl_unfold_run_names
  funext y
  refine (View.read_writes_cons_unit_of_mem arg7.view f _ _ [] y y rfl (fun a => ?_)).trans ?_
  · fin_cases a <;> simp
  · simp only [View.readAt_eq_ld, Memref.IsWhole.read_unread, View.ld_unit_zero (S := S400x10000) origin2, View.ld_unit_zero (S := S10000x64) origin2,
      View.ld_unit_zero (S := S1x64) origin2]

end Cert.KernelIdeal.Steps

end
-- ==== Proof.LayerValuesIdeal.lean ====
/-
  The arrays the fused body builds across the grid, as functions of the blocks the windows present.
  The projected features are what the first point stores: one whole array. The second projection is built 400 rows at
  a time, block t by point t of the first half, each block from the adjacency matrix's rows of that block and the
  projected features; row k of the whole is row k mod 400 of block k / 400. A point t of the second half computes its
  400 rows of the result from its block of the adjacency matrix and the whole second projection.
-/
import proofs.«160591_g55490977464611_cont_9to1_m_229_22_alg».proof.Proof.Gen.KernelIdeal.Frame
import proofs.«160591_g55490977464611_cont_9to1_m_229_22_alg».proof.Proof.Gen.KernelIdeal.Skeleton
import Idealize.ShloMosaic.Lib.ValueIdx

set_option maxRecDepth 16384

noncomputable section

namespace Cert.KernelIdeal.Carried

open Cert.KernelIdeal Cert.KernelIdeal.Gen
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ) (c : Dev nD)

/-- The grid's first point. -/
abbrev firstPoint : Fin cfg0.N := ⟨0, by decide⟩

/-- The projected features x · w1, as the first point computes them from its blocks (the whole arrays). -/
def projAll : Vec F S10000x128 .bf16 := k0_pay1 (iblk m c 0 firstPoint) (iblk m c 1 firstPoint)

/-- Block t of the second projection: 400 rows, from block t of the adjacency matrix and the projected features. -/
def mixRows (t : Fin cfg0.N) : Vec F S400x64 .bf16 := k0_pay3 (iblk m c 5 t) (projAll m c) (iblk m c 2 t) (iblk m c 3 t)

/-- The block that holds row r of a 10000-row array cut into blocks of 400 rows is a point of the grid's first half. -/
theorem blockOf_lt (r : Fin 10000) : r.val / 400 < cfg0.N :=
  Nat.lt_of_lt_of_le (Nat.div_lt_of_lt_mul (show r.val < 400 * 25 from r.isLt)) (by decide)

/-- The whole second projection: row k is row k mod 400 of block k / 400. -/
def mixAll : Vec F S10000x64 .bf16 := fun y =>
  mixRows m c ⟨(y (0 : Fin 2)).val / 400, blockOf_lt (y (0 : Fin 2))⟩
    (ix2 (⟨(y (0 : Fin 2)).val % 400, Nat.mod_lt _ (by decide)⟩ : Fin 400) (y (1 : Fin 2)))

/-- The 400 rows of the result a point t of the second half computes. -/
def outRows (t : Fin cfg0.N) : Vec F S400x64 .f32 := k0_pay4 (iblk m c 5 t) (mixAll m c) (iblk m c 4 t)

end Cert.KernelIdeal.Carried

end
-- ==== Proof.LayerCarryIdeal.lean ====
/-
  The grid run of the fused body: what is carried from point to point, and the body's obligation at every point.
  After the first point the first scratch array holds the projected features; after n points the rows of the first
  min(n, 25) blocks of the second scratch array hold the second projection's rows (the others are whatever they were);
  so from point 25 on the second scratch array is the whole second projection, and each later point's output block is
  its 400 rows of the result. The output window rests on block 0 through the first half and is not written back there.
-/
import proofs.«160591_g55490977464611_cont_9to1_m_229_22_alg».proof.Proof.LayerPiecesIdeal
import proofs.«160591_g55490977464611_cont_9to1_m_229_22_alg».proof.Proof.LayerValuesIdeal

set_option maxRecDepth 16384

noncomputable section

namespace Cert.KernelIdeal.Carried

open Cert.KernelIdeal Cert.KernelIdeal.Gen Cert.KernelIdeal.Steps
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule of the output window, and the inputs never resting -/

theorem out_rests : ∀ t : Fin cfg0.N, t.val < 25 → cfg0.idle 6 (grid0.coords t) = true := by decide +kernel
theorem out_stored : ∀ t : Fin cfg0.N, 25 ≤ t.val → cfg0.idle 6 (grid0.coords t) = false := by decide +kernel
theorem out_kept : ∀ t : Fin cfg0.N, t.val < 25 → (cfg0.win 6).flush t = false :=
  (by decide +kernel : ∀ t : Fin grid0.N, t.val < 25 → win0_6.flush t = false)
theorem out_written_back : ∀ t : Fin cfg0.N, 25 ≤ t.val → (cfg0.win 6).flush t = true :=
  (by decide +kernel : ∀ t : Fin grid0.N, 25 ≤ t.val → win0_6.flush t = true)
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel

/-! ## What is known of the second scratch array after n points -/

/-- The rows of the blocks below min(n, 25) of d are the second projection's. -/
def RowsKnown (c : Dev nD) (n : ℕ) (d : Vec F S10000x64 .bf16) : Prop :=
  ∀ t : Fin cfg0.N, t.val < n → t.val < 25 → ∀ (y : S10000x64.Idx) (x : S400x64.Idx),
    (y (0 : Fin 2)).val = 400 * t.val + (x (0 : Fin 2)).val → (y (1 : Fin 2)).val = (x (1 : Fin 2)).val → d y = mixRows m c t x

/-- Once all 25 blocks are known the array is the whole second projection. -/
theorem RowsKnown.complete {c : Dev nD} {n : ℕ} {d : Vec F S10000x64 .bf16} (h : RowsKnown m c n d) (hn : 25 ≤ n) : d = mixAll m c := by
  funext y
  have hy : (y (0 : Fin 2)).val < 400 * 25 := (y (0 : Fin 2)).isLt
  exact h ⟨(y (0 : Fin 2)).val / 400, blockOf_lt (y (0 : Fin 2))⟩
    (show (y (0 : Fin 2)).val / 400 < n by have := Nat.div_lt_of_lt_mul hy; omega)
    (Nat.div_lt_of_lt_mul hy) y
    (ix2 (⟨(y (0 : Fin 2)).val % 400, Nat.mod_lt _ (by decide)⟩ : Fin 400) (y (1 : Fin 2)))
    (Nat.div_add_mod _ 400).symm rfl

/-! ## The invariant between points -/

/-- Before the first point the scratch arrays hold anything; after n + 1 points the first holds the projected
    features and the second some contents whose known rows are the second projection's. -/
def carried (c : Dev nD) : (n : ℕ) → n ≤ cfg0.N → sProp 𝕄
  | 0, _ => Pipeline.ΦA spec0 c
  | n + 1, _ => iprop(iprop(owns (c : Thread nD τ) projM fullShare (projAll m c) ∗ (∃ d, ⌜RowsKnown m c (n + 1) d⌝ ∗ owns (c : Thread nD τ) mixM fullShare d)) ∗ (∃ r, prngReg c r))

theorem carried_zero (c : Dev nD) (n : ℕ) (h : n ≤ cfg0.N) (hz : n = 0) : carried m c n h = Pipeline.ΦA spec0 c := by
  subst hz; rfl

theorem carried_succ (c : Dev nD) (n : ℕ) (hn : n + 1 ≤ cfg0.N) :
    carried m c (n + 1) hn = iprop(iprop(owns (c : Thread nD τ) projM fullShare (projAll m c) ∗ (∃ d, ⌜RowsKnown m c (n + 1) d⌝ ∗ owns (c : Thread nD τ) mixM fullShare d)) ∗ (∃ r, prngReg c r)) := rfl

theorem carried_pos (c : Dev nD) (n : ℕ) (h : n ≤ cfg0.N) (hz : n ≠ 0) :
    carried m c n h = iprop(iprop(owns (c : Thread nD τ) projM fullShare (projAll m c) ∗ (∃ d, ⌜RowsKnown m c n d⌝ ∗ owns (c : Thread nD τ) mixM fullShare d)) ∗ (∃ r, prngReg c r)) := by
  cases n with
  | zero => exact absurd rfl hz
  | succ n => rfl

/-! ## The proof data of the grid run -/

/-- Each input window's buffer holds its block after the body; the output block holds the point's rows of the result
    (consulted only at the points of the second half). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outRows m c t
  Φ t := carried m c t.val (Nat.le_of_lt_succ t.isLt)
  q _ := fullShare
  owed _ := 0

theorem A_eq (c : Dev nD) (w : Fin cfg0.W) : (dats m 0 c).A w = V m c (Pipeline.arrRef spec0 w) := by
  dsimp only [dats]

theorem carried_castSucc (c : Dev nD) (t : Fin cfg0.N) :
    (dats m 0 c).Φ t.castSucc = carried m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outRows m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The body's obligation at a point -/

/-- What the body is handed at point t: the invariant, nothing owed, every window's buffer at what it then holds. -/
def handed (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- What it returns. -/
def returned (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-! ## The obligation's two sides, window by window -/

theorem owes_succ (c : Dev nD) (t : Fin cfg0.N) : (dats m 0 c).owesAt () t.succ = (dats m 0 c).owesAt () t.castSucc := rfl

theorem carried_at_succ (c : Dev nD) (t : Fin cfg0.N) :
    (dats m 0 c).Φ t.succ = iprop(iprop(owns (c : Thread nD τ) projM fullShare (projAll m c) ∗ (∃ d, ⌜RowsKnown m c (t.val + 1) d⌝ ∗ owns (c : Thread nD τ) mixM fullShare d)) ∗ (∃ r, prngReg c r)) := rfl

theorem leaves_0 (c : Dev nD) (t : Fin cfg0.N) : (dats m 0 c).leavesExact 0 t = owns (c : Thread nD τ) (ms0 t) fullShare (iblk m c 0 t) := by
  unfold Dat.leavesExact; rw [live0 t, after_0]
theorem leaves_1 (c : Dev nD) (t : Fin cfg0.N) : (dats m 0 c).leavesExact 1 t = owns (c : Thread nD τ) (ms1 t) fullShare (iblk m c 1 t) := by
  unfold Dat.leavesExact; rw [live1 t, after_1]
theorem leaves_2 (c : Dev nD) (t : Fin cfg0.N) : (dats m 0 c).leavesExact 2 t = owns (c : Thread nD τ) (ms2 t) fullShare (iblk m c 2 t) := by
  unfold Dat.leavesExact; rw [live2 t, after_2]
theorem leaves_3 (c : Dev nD) (t : Fin cfg0.N) : (dats m 0 c).leavesExact 3 t = owns (c : Thread nD τ) (ms3 t) fullShare (iblk m c 3 t) := by
  unfold Dat.leavesExact; rw [live3 t, after_3]
theorem leaves_4 (c : Dev nD) (t : Fin cfg0.N) : (dats m 0 c).leavesExact 4 t = owns (c : Thread nD τ) (ms4 t) fullShare (iblk m c 4 t) := by
  unfold Dat.leavesExact; rw [live4 t, after_4]
theorem leaves_5 (c : Dev nD) (t : Fin cfg0.N) : (dats m 0 c).leavesExact 5 t = owns (c : Thread nD τ) (ms5 t) fullShare (iblk m c 5 t) := by
  unfold Dat.leavesExact; rw [live5 t, after_5]
/-- In the first half the output block rests: it is handed back as found. -/
theorem leaves_6_rest (c : Dev nD) (t : Fin cfg0.N) (h : t.val < 25) :
    (dats m 0 c).leavesExact 6 t = iprop(∃ d, owns (c : Thread nD τ) (ms6 t) fullShare ((dats m 0 c).before 6 t d)) :=
  Dat.leavesExact_idle (dats m 0 c) 6 t (out_rests t h) (out_kept t h)
/-- In the second half it holds the point's rows of the result. -/
theorem leaves_6_stored (c : Dev nD) (t : Fin cfg0.N) (h : 25 ≤ t.val) :
    (dats m 0 c).leavesExact 6 t = owns (c : Thread nD τ) (ms6 t) fullShare (outRows m c t) := by
  unfold Dat.leavesExact; rw [out_stored t h, after_6]

end Cert.KernelIdeal.Carried

end
-- ==== Proof.LayerPointsIdeal.lean ====
/-
  The fused body's obligation at a grid point, in each of its three cases: from the invariant and the windows' blocks
  before the point to the invariant and the blocks after it. At the first point the scratch arrays hold anything and
  end at the projected features and the first block's rows of the second projection; at a later point of the first
  half one more block of rows becomes known, the rows known before being left as they were; at a point of the second
  half every block is known, so the second scratch array is the whole second projection and the output block is stored
  with the point's rows of the result.
-/
import proofs.«160591_g55490977464611_cont_9to1_m_229_22_alg».proof.Proof.LayerCarryIdeal

set_option maxRecDepth 16384

noncomputable section

namespace Cert.KernelIdeal.Carried

open Cert.KernelIdeal Cert.KernelIdeal.Gen Cert.KernelIdeal.Steps
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1500000 in
/-- The first point: from scratch arrays holding anything to the projected features and the first block's rows. -/
theorem at_first (c : Dev nD) (t : Fin cfg0.N) (hz : t.val = 0) : handed m c t ⊢ wp frame (wpE (defs₀ (F := F)) Variants.none c none) Set.univ (bodyAt0 t) (fun _ => returned m c t) := by
  have h1 : t.val < 25 := by omega
  unfold handed returned bodyAt0
  simp only [before_0, before_1, before_2, before_3, before_4, before_5]
  rw [owes_succ, carried_at_succ, leaves_0, leaves_1, leaves_2, leaves_3, leaves_4, leaves_5, leaves_6_rest m c t h1, carried_castSucc m c t]
  have hoff := sliceRows t h1
  have hc0 : isFirst (grid0.coords t) := (isFirst_iff t).mpr hz
  have hc1 : inFirstHalf (grid0.coords t) := (inFirstHalf_iff t).mpr h1
  have hc2 : ¬inSecondHalf (grid0.coords t) := fun h => absurd ((inSecondHalf_iff t).mp h) (by omega)
  rw [carried_zero m c _ _ hz, scratch_eq]
  iintro ⟨⟨⟨HS0, ⟨%d1, HS1⟩⟩, Hg⟩, Ho, ⟨%d0', H0⟩, ⟨%d1', H1⟩, ⟨%d2', H2⟩, ⟨%d3', H3⟩, ⟨%d4', H4⟩, ⟨%d5', H5⟩, ⟨%d6, H6⟩⟩
  iapply ((runFirst c (grid0.coords t) (ms0 t) (hs0 t) (ms1 t) (hs1 t) (ms2 t) (hs2 t) (ms3 t) (hs3 t) (ms4 t) (hs4 t) (ms5 t) (hs5 t) (ms6 t) (hs6 t) projM (Memref.isWhole_whole _) mixM (Memref.isWhole_whole _) hc0 hc1 hc2 (iblk m c 0 t) (iblk m c 1 t) (iblk m c 2 t) (iblk m c 3 t) (iblk m c 4 t) (iblk m c 5 t) d1).2.2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, ⟨%f, HS0⟩, HS1⟩
  isplitl [HS0 HS1 Hg]
  · isplitl [HS0 HS1]
    · isplitl [HS0]
      · unfold owns; iexists _; isplitr
        swap; · iexact HS0
        ipureintro
        refine (first_leaves_proj c (grid0.coords t) (ms0 t) (hs0 t) (ms1 t) (hs1 t) (ms2 t) (hs2 t) (ms3 t) (hs3 t) (ms4 t) (hs4 t) (ms5 t) (hs5 t) (ms6 t) (hs6 t) projM (Memref.isWhole_whole _) mixM (Memref.isWhole_whole _) (iblk m c 0 t) (iblk m c 1 t) (iblk m c 2 t) (iblk m c 3 t) (iblk m c 4 t) (iblk m c 5 t) hc0 hc1 hc2 d1 f).trans ?_
        have e : t = firstPoint := Fin.ext hz
        subst e; rfl
      · iexists _; isplitr
        swap
        · unfold owns; iexists _; isplitr
          swap; · iexact HS1
          ipureintro; rfl
        ipureintro
        intro t' ht' _ y x hx0 hx1
        have e : t' = t := Fin.ext (by omega)
        subst t'
        refine (first_rows_mem c (grid0.coords t) (ms0 t) (hs0 t) (ms1 t) (hs1 t) (ms2 t) (hs2 t) (ms3 t) (hs3 t) (ms4 t) (hs4 t) (ms5 t) (hs5 t) (ms6 t) (hs6 t) projM (Memref.isWhole_whole _) mixM (Memref.isWhole_whole _) (iblk m c 0 t) (iblk m c 1 t) (iblk m c 2 t) (iblk m c 3 t) (iblk m c 4 t) (iblk m c 5 t) hc0 hc1 hc2 d1 (400 * t.val) hoff y x hx0 hx1).trans ?_
        have e : t = firstPoint := Fin.ext hz
        subst e; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

set_option maxHeartbeats 1500000 in
/-- A later point of the first half: one more block of rows of the second projection becomes known. -/
theorem at_first_half (c : Dev nD) (t : Fin cfg0.N) (hz : t.val ≠ 0) (h1 : t.val < 25) : handed m c t ⊢ wp frame (wpE (defs₀ (F := F)) Variants.none c none) Set.univ (bodyAt0 t) (fun _ => returned m c t) := by
  unfold handed returned bodyAt0
  simp only [before_0, before_1, before_2, before_3, before_4, before_5]
  rw [owes_succ, carried_at_succ, leaves_0, leaves_1, leaves_2, leaves_3, leaves_4, leaves_5, leaves_6_rest m c t h1, carried_castSucc m c t]
  have hoff := sliceRows t h1
  have hc0 : ¬isFirst (grid0.coords t) := fun h => hz ((isFirst_iff t).mp h)
  have hc1 : inFirstHalf (grid0.coords t) := (inFirstHalf_iff t).mpr h1
  have hc2 : ¬inSecondHalf (grid0.coords t) := fun h => absurd ((inSecondHalf_iff t).mp h) (by omega)
  rw [carried_pos m c _ _ hz]
  iintro ⟨⟨⟨HS0, ⟨%d1, %hd1, HS1⟩⟩, Hg⟩, Ho, ⟨%d0', H0⟩, ⟨%d1', H1⟩, ⟨%d2', H2⟩, ⟨%d3', H3⟩, ⟨%d4', H4⟩, ⟨%d5', H5⟩, ⟨%d6, H6⟩⟩
  iapply ((runFirstHalf c (grid0.coords t) (ms0 t) (hs0 t) (ms1 t) (hs1 t) (ms2 t) (hs2 t) (ms3 t) (hs3 t) (ms4 t) (hs4 t) (ms5 t) (hs5 t) (ms6 t) (hs6 t) projM (Memref.isWhole_whole _) mixM (Memref.isWhole_whole _) hc0 hc1 hc2 (iblk m c 0 t) (iblk m c 1 t) (iblk m c 2 t) (iblk m c 3 t) (iblk m c 4 t) (iblk m c 5 t) (projAll m c) d1).2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      · iexists _; isplitr
        swap
        · unfold owns; iexists _; isplitr
          swap; · iexact HS1
          ipureintro; rfl
        ipureintro
        intro t' ht' h25 y x hx0 hx1
        by_cases e : t' = t
        · subst t'
          exact half_rows_mem c (grid0.coords t) (ms0 t) (hs0 t) (ms1 t) (hs1 t) (ms2 t) (hs2 t) (ms3 t) (hs3 t) (ms4 t) (hs4 t) (ms5 t) (hs5 t) (ms6 t) (hs6 t) projM (Memref.isWhole_whole _) mixM (Memref.isWhole_whole _) (iblk m c 0 t) (iblk m c 1 t) (iblk m c 2 t) (iblk m c 3 t) (iblk m c 4 t) (iblk m c 5 t) hc0 hc1 hc2 (projAll m c) d1 (400 * t.val) hoff y x hx0 hx1
        · have hlt : t'.val < t.val := by
            have : t'.val ≠ t.val := fun h => e (Fin.ext h)
            omega
          have hx : (x (0 : Fin 2)).val < 400 := (x (0 : Fin 2)).isLt
          refine (half_rows_not_mem c (grid0.coords t) (ms0 t) (hs0 t) (ms1 t) (hs1 t) (ms2 t) (hs2 t) (ms3 t) (hs3 t) (ms4 t) (hs4 t) (ms5 t) (hs5 t) (ms6 t) (hs6 t) projM (Memref.isWhole_whole _) mixM (Memref.isWhole_whole _) (iblk m c 0 t) (iblk m c 1 t) (iblk m c 2 t) (iblk m c 3 t) (iblk m c 4 t) (iblk m c 5 t) hc0 hc1 hc2 (projAll m c) d1 (400 * t.val) hoff y (Or.inl (by omega))).trans ?_
          exact hd1 t' hlt h25 y x hx0 hx1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

set_option maxHeartbeats 1500000 in
/-- A point of the second half: the second scratch array is the whole second projection, and the output block is
    stored with the point's rows of the result. -/
theorem at_second_half (c : Dev nD) (t : Fin cfg0.N) (h2 : 25 ≤ t.val) : handed m c t ⊢ wp frame (wpE (defs₀ (F := F)) Variants.none c none) Set.univ (bodyAt0 t) (fun _ => returned m c t) := by
  unfold handed returned bodyAt0
  simp only [before_0, before_1, before_2, before_3, before_4, before_5]
  rw [owes_succ, carried_at_succ, leaves_0, leaves_1, leaves_2, leaves_3, leaves_4, leaves_5, leaves_6_stored m c t h2, carried_castSucc m c t]
  have hz : t.val ≠ 0 := by omega
  have hc0 : ¬isFirst (grid0.coords t) := fun h => hz ((isFirst_iff t).mp h)
  have hc1 : ¬inFirstHalf (grid0.coords t) := fun h => absurd ((inFirstHalf_iff t).mp h) (by omega)
  have hc2 : inSecondHalf (grid0.coords t) := (inSecondHalf_iff t).mpr h2
  rw [carried_pos m c _ _ hz]
  iintro ⟨⟨⟨HS0, ⟨%d1, %hd1, HS1⟩⟩, Hg⟩, Ho, ⟨%d0', H0⟩, ⟨%d1', H1⟩, ⟨%d2', H2⟩, ⟨%d3', H3⟩, ⟨%d4', H4⟩, ⟨%d5', H5⟩, ⟨%d6, H6⟩⟩
  have hfull : d1 = mixAll m c := hd1.complete m h2
  iapply ((runSecondHalf c (grid0.coords t) (ms0 t) (hs0 t) (ms1 t) (hs1 t) (ms2 t) (hs2 t) (ms3 t) (hs3 t) (ms4 t) (hs4 t) (ms5 t) (hs5 t) (ms6 t) (hs6 t) projM (Memref.isWhole_whole _) mixM (Memref.isWhole_whole _) hc0 hc1 hc2 (iblk m c 0 t) (iblk m c 1 t) (iblk m c 2 t) (iblk m c 3 t) (iblk m c 4 t) (iblk m c 5 t) d1).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS1]; · iexact HS1
  iintro ⟨H0, H1, H2, H3, H4, H5, ⟨%f, H6⟩, HS1⟩
  isplitl [HS0 HS1 Hg]
  · isplitl [HS0 HS1]
    · isplitl [HS0]
      · iexact HS0
      · iexists d1; isplitr
        · ipureintro; exact fun t' _ h25 => hd1 t' (by omega) h25
        iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro
  refine (second_leaves_out c (grid0.coords t) (ms0 t) (hs0 t) (ms1 t) (hs1 t) (ms2 t) (hs2 t) (ms3 t) (hs3 t) (ms4 t) (hs4 t) (ms5 t) (hs5 t) (ms6 t) (hs6 t) projM (Memref.isWhole_whole _) mixM (Memref.isWhole_whole _) (iblk m c 0 t) (iblk m c 1 t) (iblk m c 2 t) (iblk m c 3 t) (iblk m c 4 t) (iblk m c 5 t) hc0 hc1 hc2 d1 f).trans ?_
  rw [hfull]; rfl

end Cert.KernelIdeal.Carried

end
-- ==== Proof.LayerRunIdeal.lean ====
/-
  The grid run of the fused body: the obligation at every point from its three cases, the invariant at the two ends,
  and the run itself — every weakly fair execution terminates, the argument arrays end as they were, and the result
  array ends at what the write-backs leave.
-/
import proofs.«160591_g55490977464611_cont_9to1_m_229_22_alg».proof.Proof.LayerPointsIdeal

set_option maxRecDepth 16384

noncomputable section

namespace Cert.KernelIdeal.Carried

open Cert.KernelIdeal Cert.KernelIdeal.Gen Cert.KernelIdeal.Steps
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point, by the point's case. -/
theorem body_at (c : Dev nD) (t : Fin cfg0.N) :
    handed m c t ⊢ wp frame (wpE (defs₀ (F := F)) Variants.none c none) Set.univ (bodyAt0 t) (fun _ => returned m c t) := by
  by_cases h1 : t.val < 25
  · by_cases hz : t.val = 0
    · exact at_first m c t hz
    · exact at_first_half m c t hz h1
  · exact at_second_half m c t (by omega)

/-- The library's body obligation, at every point. -/
theorem body_obligation (c : Dev nD) : BodyObligation (dats (F := F) m 0 c) (defs₀ (F := F)) Variants.none () Set.univ := fun t => by
  rw [bigSep_W0, bigSep_W0]
  exact body_at m c t

/-- What the launch hands the region is the invariant before the first point. -/
theorem hin (c : Dev nD) : Pipeline.ΦA spec0 c ⊢ (dats m 0 c).Φ 0 := by
  rw [show (dats m 0 c).Φ 0 = carried m c 0 (Nat.zero_le _) from rfl, carried_zero m c 0 _ rfl]
  try exact Idealize.SL.BI.Entails.refl _

/-- After the last point the invariant gives the scratch arrays back at whatever they hold. -/
theorem hout (c : Dev nD) : (dats m 0 c).Φ (Fin.last cfg0.N) ⊢ Pipeline.ΦA spec0 c := by
  rw [show (dats m 0 c).Φ (Fin.last cfg0.N) = carried m c (Fin.last cfg0.N).val (Nat.le_of_lt_succ (Fin.last cfg0.N).isLt) from rfl,
    carried_pos m c _ _ (by rw [Fin.val_last]; have : cfg0.N = 50 := N_0; omega), scratch_eq]
  iintro ⟨⟨HS0, ⟨%d, %hd, HS1⟩⟩, Hg⟩
  isplitl [HS0 HS1]
  · isplitl [HS0]
    · iexists _; iexact HS0
    iexists _; iexact HS1
  iexact Hg

/-! ## The run -/

set_option backward.isDefEq.respectTransparency.types false in
/-- Every weakly fair execution of the program terminates; the argument arrays end as they were and the output array
    ends at what the write-backs of the second half's points leave. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Carried

end
-- ==== Proof.GraphLayers.lean ====
/-
  Two propagation layers over a dense adjacency matrix, entry by entry on the extended reals.
  For node features x [10000, 256], adjacency g [10000, 10000], weights w1 [256, 128], w2 [128, 64] and
  biases b1 [128], b2 [64]:
    proj   (l, j) = ∑ d, x (l, d) · w1 (d, j)                         the projected features
    hidden (k, j) = max (∑ l, g (k, l) · proj (l, j) + b1 j) 0        propagated, shifted, rectified
    mixed  (k, c) = ∑ j, hidden (k, j) · w2 (j, c)                    the second projection
    out    (r, c) = ∑ k, g (r, k) · mixed (k, c) + b2 c               propagated again and shifted
  Every sum is taken in one piece and in this order of operations; no law of arithmetic is used to join the two
  programs, only that each computes these four stages.
-/
import Idealize.ShloMosaic.PureOps.Ideal
import Idealize.ShloMosaic.Lib.ValueIdx

noncomputable section

namespace Cert.GraphLayers

open Idealize.ShloMosaic Idealize.ShloMosaic.ValueIdx

abbrev SX : Shape := ⟨2, ![10000, 256]⟩
abbrev SG : Shape := ⟨2, ![10000, 10000]⟩
abbrev SW1 : Shape := ⟨2, ![256, 128]⟩
abbrev SB1 : Shape := ⟨1, ![128]⟩
abbrev SW2 : Shape := ⟨2, ![128, 64]⟩
abbrev SB2 : Shape := ⟨1, ![64]⟩
abbrev SProj : Shape := ⟨2, ![10000, 128]⟩
abbrev SOut : Shape := ⟨2, ![10000, 64]⟩

variable (x : SX.Idx → EReal) (g : SG.Idx → EReal) (w1 : SW1.Idx → EReal) (b1 : SB1.Idx → EReal)
  (w2 : SW2.Idx → EReal) (b2 : SB2.Idx → EReal)

/-- The projected features: x · w1 at (l, j). -/
def proj (l : Fin 10000) (j : Fin 128) : EReal := ∑ d : Fin 256, x (ix2 l d) * w1 (ix2 d j)

/-- The first layer at (k, j): the neighbourhood sum of the projected features, the bias added, the positive part taken. -/
def hidden (k : Fin 10000) (j : Fin 128) : EReal :=
  max ((∑ l : Fin 10000, g (ix2 k l) * proj x w1 l j) + b1 (ix1 j)) 0

/-- The second projection: hidden · w2 at (k, c). -/
def mixed (k : Fin 10000) (c : Fin 64) : EReal := ∑ j : Fin 128, hidden x g w1 b1 k j * w2 (ix2 j c)

/-- The second layer at (r, c): the neighbourhood sum of the second projection, the bias added. -/
def outAt (r : Fin 10000) (c : Fin 64) : EReal := (∑ k : Fin 10000, g (ix2 r k) * mixed x g w1 b1 w2 k c) + b2 (ix1 c)

/-- The projected features as an array. -/
def projArr : SProj.Idx → EReal := fun i => proj x w1 (i 0) (i 1)

/-- The second projection as an array. -/
def mixedArr : SOut.Idx → EReal := fun i => mixed x g w1 b1 w2 (i 0) (i 1)

/-- The network's result as an array. -/
def out : SOut.Idx → EReal := fun i => outAt x g w1 b1 w2 b2 (i 0) (i 1)

end Cert.GraphLayers

end
-- ==== Proof.LibPlainDot.lean ====
/-
  A plain matrix product read at an entry. For the dimension numbers of an [M, K] by [K, N] product (no batch axis,
  the left operand contracted on its last axis and the right on its first) the entry (p, q) of the product is
  ∑ₖ l(p, k) · r(k, q) over k : Fin K — for a tpu.matmul into the zero accumulator and for the host's dot_general alike,
  at the ideal values. General in the three extents and in the operands' formats; a printed record of these dimension
  numbers is DotDims.plain M K N up to the proof it carries, so it is passed with the equation (by rfl).
-/
import Idealize.ShloMosaic.PureOps.Ideal.Laws
import Idealize.ShloMosaic.Lib.ValueIdx

namespace Idealize.ShloMosaic.ValueIdx

/-- The left operand's row is the output's row, whatever the contraction index. -/
theorem plain_lhs_row {M K N : ℕ} (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column, whatever the contraction index. -/
theorem plain_rhs_col {M K N : ℕ} (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The left operand's index at output (p, q) and contraction coordinate k is (p, k). -/
theorem plain_lhsIdx {M K N : ℕ} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => exact plain_lhs_row (ix2 p q) _
  | ⟨1, _⟩ => exact ((DotDims.plain M K N).lhsIdx_val_of_single (cl := (1 : Fin 2)) rfl (ix2 p q) _).trans hk

/-- The right operand's index at output (p, q) and contraction coordinate k is (k, q). -/
theorem plain_rhsIdx {M K N : ℕ} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single (cr := (0 : Fin 2)) rfl (ix2 p q) _).trans hk
  | ⟨1, _⟩ => exact plain_rhs_col (ix2 p q) _

/-- The product's sum over the contraction index, re-indexed by the contracted coordinate. -/
theorem sum_plain {M K N : ℕ} (l : (⟨2, ![M, K]⟩ : Shape).Idx → EReal) (r : (⟨2, ![K, N]⟩ : Shape).Idx → EReal)
    (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  exact Finset.sum_congr rfl fun k _ => by rw [plain_lhsIdx, plain_rhsIdx]

/-- A tpu.matmul of these dimension numbers into the zero accumulator, at entry (p, q). -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  exact (Ideal.matmul_constant_zero_apply _ prec lhs rhs (ix2 p q)).trans (sum_plain lhs rhs p q)

/-- The host's dot_general of these dimension numbers, at entry (p, q). -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  exact (Ideal.dotGeneral_apply _ prec sched lhs rhs (ix2 p q)).trans (sum_plain lhs rhs p q)

end Idealize.ShloMosaic.ValueIdx
-- ==== Proof.KernelStages.lean ====
/-
  The kernel's three arithmetic stages, each read at one entry on the extended reals.
  Stage one is the product x · w1 into a zero accumulator. Stage two takes a 400-row block of the adjacency matrix,
  multiplies it with a [10000, 128] array, adds a bias row to every row, takes the positive part and multiplies with w2.
  Stage three multiplies the same block with a [10000, 64] array and adds a bias row. On the extended reals a change of
  format is the identity and a cast to the same shape moves nothing, so each stage is the sum its products spell out.
-/
import proofs.«160591_g55490977464611_cont_9to1_m_229_22_alg».proof.Proof.Gen.KernelIdeal.Skeleton
import proofs.«160591_g55490977464611_cont_9to1_m_229_22_alg».proof.Proof.GraphLayers
import proofs.«160591_g55490977464611_cont_9to1_m_229_22_alg».proof.Proof.LibPlainDot
import Idealize.ShloMosaic.Lib.Pipeline.Value
import Idealize.ShloMosaic.Lib.ValueLayout
import Idealize.ShloMosaic.Lib.ValueIdx
import Idealize.ShloMosaic.PureOps.Ideal.Laws

noncomputable section

namespace Cert.KernelStages

open Idealize.ShloMosaic Idealize.ShloMosaic.ValueIdx Cert.KernelIdeal Cert.KernelIdeal.Gen

/-- Stage one at (l, j): the projected features x · w1. -/
theorem proj_stage (x0 : Vec Ideal S10000x256 .f32) (x1 : Vec Ideal S256x128 .f32) (l : Fin 10000) (j : Fin 128) :
    k0_pay1 (F := Ideal) x0 x1 (ix2 l j) = Cert.GraphLayers.proj x0 x1 l j := by
  unfold k0_pay1
  rw [shapeCast_self]
  exact matmul_plain_zero_apply (φ₁ := .f32) (φ₂ := .f32) _ rfl none x0 x1 l j

/-- Stage three at (p, c): the block's row p against column c of the array, the bias row added. -/
theorem out_stage (gb : Vec Ideal S400x10000 .f32) (hw : Vec Ideal S10000x64 .bf16) (brow : Vec Ideal S1x64 .f32)
    (p : Fin 400) (c : Fin 64) :
    k0_pay4 (F := Ideal) gb hw brow (ix2 p c)
      = (∑ k : Fin 10000, gb (ix2 p k) * hw (ix2 k c)) + brow (ix2 (0 : Fin 1) c) := by
  unfold k0_pay4 k0_pay2
  rw [shapeCast_self]
  refine (addf_apply _ _ _).trans ?_
  rw [broadcastTo_1b_ab_apply]
  exact congrArg (· + brow (ix2 (0 : Fin 1) c)) (matmul_plain_zero_apply (φ₁ := .bf16) (φ₂ := .bf16) _ rfl none _ hw p c)

/-- Stage two at (p, c): the block's row p against the array, the bias row added, the positive part taken, then the
    product with w2. -/
theorem mixed_stage (gb : Vec Ideal S400x10000 .f32) (a : Vec Ideal S10000x128 .bf16) (brow : Vec Ideal S1x128 .f32)
    (w2 : Vec Ideal S128x64 .f32) (p : Fin 400) (c : Fin 64) :
    k0_pay3 (F := Ideal) gb a brow w2 (ix2 p c)
      = ∑ j : Fin 128, max ((∑ l : Fin 10000, gb (ix2 p l) * a (ix2 l j)) + brow (ix2 (0 : Fin 1) j)) 0 * w2 (ix2 j c) := by
  unfold k0_pay3 k0_pay2
  rw [shapeCast_self, shapeCast_self]
  refine (matmul_plain_zero_apply (φ₁ := .f32) (φ₂ := .f32) _ rfl none _ w2 p c).trans ?_
  refine Finset.sum_congr rfl fun j _ => ?_
  refine congrArg (· * w2 (ix2 j c)) ?_
  refine (maximumf_apply _ _ _).trans ?_
  refine congrArg₂ max ?_ Ideal.ofBits_zero_f32
  refine (addf_apply _ _ _).trans ?_
  rw [broadcastTo_1b_ab_apply]
  exact congrArg (· + brow (ix2 (0 : Fin 1) j)) (matmul_plain_zero_apply (φ₁ := .bf16) (φ₂ := .bf16) _ rfl none _ a p j)

end Cert.KernelStages

end
-- ==== Proof.BlocksIdeal.lean ====
/-
  Each input window's block at a grid point, read at explicit coordinates off the six argument arrays.
  The features, both weight matrices and both bias rows travel whole: their one block is the array, and a bias row is
  the bias vector laid out as a single row. The adjacency matrix travels in blocks of 400 rows; the grid's fifty points
  sweep its twenty-five blocks twice, so point t holds the rows 400 · (t mod 25) … 400 · (t mod 25) + 399.
  A block's coordinate on an axis is always (block index) · (block extent) + (coordinate inside the block).
-/
import proofs.«160591_g55490977464611_cont_9to1_m_229_22_alg».proof.Proof.Gen.KernelIdeal.Frame
import Idealize.ShloMosaic.Lib.Pipeline.Value
import Idealize.ShloMosaic.Lib.ValueLayout
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The block index of each input window at each grid point: the whole-array windows stay at block (0, 0); the
    adjacency window is at row block t mod 25. -/
theorem idx_facts : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val % 25 ∧ win0_5.index t (1 : Fin 2) = 0) :=
  (by decide +kernel : ∀ t : Fin grid0.N, _)

/-- The features' block is the feature array. -/
theorem blk_x (c : Dev nD) (t : Fin cfg0.N) (l : Fin 10000) (d : Fin 256) :
    (iblk m c 0 t : Vec F S10000x256 .f32) (ix2 l d)
      = (m ((c : Thread nD τ).loc main_arg0) : S10000x256.Idx → Elt F .f32) (ix2 l d) := by
  obtain ⟨⟨h0, h1⟩, -⟩ := idx_facts t
  unfold iblk
  rw [View.read_apply]
  show V m c main_arg0 _ = m ((c : Thread nD τ).loc main_arg0) _
  rw [V_main_arg0]
  congr 1
  funext a
  apply Fin.ext
  match a with
  | ⟨0, _⟩ => show win0_0.index t 0 * 10000 + 1 * l.val = l.val; rw [h0]; omega
  | ⟨1, _⟩ => show win0_0.index t 1 * 256 + 1 * d.val = d.val; rw [h1]; omega

/-- The first weight matrix's block is the matrix. -/
theorem blk_w1 (c : Dev nD) (t : Fin cfg0.N) (d : Fin 256) (j : Fin 128) :
    (iblk m c 1 t : Vec F S256x128 .f32) (ix2 d j)
      = (m ((c : Thread nD τ).loc main_arg2) : S256x128.Idx → Elt F .f32) (ix2 d j) := by
  obtain ⟨-, ⟨h0, h1⟩, -⟩ := idx_facts t
  unfold iblk
  rw [View.read_apply]
  show V m c main_arg2 _ = m ((c : Thread nD τ).loc main_arg2) _
  rw [V_main_arg2]
  congr 1
  funext a
  apply Fin.ext
  match a with
  | ⟨0, _⟩ => show win0_1.index t 0 * 256 + 1 * d.val = d.val; rw [h0]; omega
  | ⟨1, _⟩ => show win0_1.index t 1 * 128 + 1 * j.val = j.val; rw [h1]; omega

/-- The second weight matrix's block is the matrix. -/
theorem blk_w2 (c : Dev nD) (t : Fin cfg0.N) (j : Fin 128) (q : Fin 64) :
    (iblk m c 3 t : Vec F S128x64 .f32) (ix2 j q)
      = (m ((c : Thread nD τ).loc main_arg4) : S128x64.Idx → Elt F .f32) (ix2 j q) := by
  obtain ⟨-, -, -, ⟨h0, h1⟩, -⟩ := idx_facts t
  unfold iblk
  rw [View.read_apply]
  show V m c main_arg4 _ = m ((c : Thread nD τ).loc main_arg4) _
  rw [V_main_arg4]
  congr 1
  funext a
  apply Fin.ext
  match a with
  | ⟨0, _⟩ => show win0_3.index t 0 * 128 + 1 * j.val = j.val; rw [h0]; omega
  | ⟨1, _⟩ => show win0_3.index t 1 * 64 + 1 * q.val = q.val; rw [h1]; omega

/-- The adjacency window's block at point t is the matrix's rows 400 · (t mod 25) + p, every column. -/
theorem blk_g (c : Dev nD) (t : Fin cfg0.N) (p : Fin 400) (l : Fin 10000) (r : Fin 10000)
    (hr : r.val = 400 * (t.val % 25) + p.val) :
    (iblk m c 5 t : Vec F S400x10000 .f32) (ix2 p l)
      = (m ((c : Thread nD τ).loc main_arg1) : S10000x10000.Idx → Elt F .f32) (ix2 r l) := by
  obtain ⟨-, -, -, -, -, ⟨h0, h1⟩⟩ := idx_facts t
  unfold iblk
  rw [View.read_apply]
  show V m c main_arg1 _ = m ((c : Thread nD τ).loc main_arg1) _
  rw [V_main_arg1]
  congr 1
  funext a
  apply Fin.ext
  match a with
  | ⟨0, _⟩ => show win0_5.index t 0 * 400 + 1 * p.val = r.val; rw [h0, hr]; omega
  | ⟨1, _⟩ => show win0_5.index t 1 * 10000 + 1 * l.val = l.val; rw [h1]; omega

/-- When the region is entered the first bias row is the first bias vector laid out as one row. -/
theorem row1_eq (c : Dev nD) :
    (V m c main_v0 : S1x128.Idx → Elt F .f32)
      = shapeCast S1x128 (m ((c : Thread nD τ).loc main_arg3) : S128.Idx → Elt F .f32) shapeCasts_S128_S1x128 := by
  dsimp only [Gen.V, Gen.hostOps0]
  after_results
  rfl

/-- When the region is entered the second bias row is the second bias vector laid out as one row. -/
theorem row2_eq (c : Dev nD) :
    (V m c main_v1 : S1x64.Idx → Elt F .f32)
      = shapeCast S1x64 (m ((c : Thread nD τ).loc main_arg5) : S64.Idx → Elt F .f32) shapeCasts_S64_S1x64 := by
  dsimp only [Gen.V, Gen.hostOps0]
  after_results
  rfl

/-- The first bias row's block at column j is the first bias vector at j. -/
theorem blk_b1 (c : Dev nD) (t : Fin cfg0.N) (j : Fin 128) :
    (iblk m c 2 t : Vec F S1x128 .f32) (ix2 (0 : Fin 1) j)
      = (m ((c : Thread nD τ).loc main_arg3) : S128.Idx → Elt F .f32) (ix1 j) := by
  obtain ⟨-, -, ⟨h0, h1⟩, -⟩ := idx_facts t
  unfold iblk
  rw [View.read_apply]
  show V m c main_v0 _ = _
  rw [row1_eq]
  refine Eq.trans (congrArg _ ?_) (shapeCast_a_1a_apply _ shapeCasts_S128_S1x128 (0 : Fin 1) j)
  funext a
  apply Fin.ext
  match a with
  | ⟨0, _⟩ => show win0_2.index t 0 * 1 + 1 * 0 = 0; rw [h0]
  | ⟨1, _⟩ => show win0_2.index t 1 * 128 + 1 * j.val = j.val; rw [h1]; omega

/-- The second bias row's block at column q is the second bias vector at q. -/
theorem blk_b2 (c : Dev nD) (t : Fin cfg0.N) (q : Fin 64) :
    (iblk m c 4 t : Vec F S1x64 .f32) (ix2 (0 : Fin 1) q)
      = (m ((c : Thread nD τ).loc main_arg5) : S64.Idx → Elt F .f32) (ix1 q) := by
  obtain ⟨-, -, -, -, ⟨h0, h1⟩, -⟩ := idx_facts t
  unfold iblk
  rw [View.read_apply]
  show V m c main_v1 _ = _
  rw [row2_eq]
  refine Eq.trans (congrArg _ ?_) (shapeCast_a_1a_apply _ shapeCasts_S64_S1x64 (0 : Fin 1) q)
  funext a
  apply Fin.ext
  match a with
  | ⟨0, _⟩ => show win0_4.index t 0 * 1 + 1 * 0 = 0; rw [h0]
  | ⟨1, _⟩ => show win0_4.index t 1 * 64 + 1 * q.val = q.val; rw [h1]; omega

end Cert.KernelIdeal.Blocks

end
-- ==== Proof.LayerReadsIdeal.lean ====
/-
  The arrays the fused body builds across the grid are the specification's stages.
  The first point's product is the projected features. Row k of the second projection lies in block k / 400 at row
  k mod 400, and that block is computed from the adjacency matrix's rows 400 · (k / 400) + (k mod 400) = k, the
  projected features, the first bias and the second weight matrix: it is the specification's second projection at
  row k. A point t of the second half holds the adjacency rows 400 · (t − 25) + p and computes from them and the
  whole second projection the specification's result at those rows.
-/
import proofs.«160591_g55490977464611_cont_9to1_m_229_22_alg».proof.Proof.LayerValuesIdeal
import proofs.«160591_g55490977464611_cont_9to1_m_229_22_alg».proof.Proof.KernelStages
import proofs.«160591_g55490977464611_cont_9to1_m_229_22_alg».proof.Proof.BlocksIdeal
import proofs.«160591_g55490977464611_cont_9to1_m_229_22_alg».proof.Proof.GraphLayers

set_option maxRecDepth 16384

noncomputable section

namespace Cert.KernelIdeal.Reads

open Cert.KernelIdeal Cert.KernelIdeal.Gen Cert.KernelIdeal.Carried Cert.KernelIdeal.Blocks Cert.KernelStages
open Idealize.ShloMosaic Idealize.ShloMosaic.TcCoe Idealize.ShloMosaic.ValueIdx
open Idealize.SL Idealize.SL.Sem

variable (m : (ℓ : Loc nD τ sig) → Buf (Elt Ideal) ℓ) (c : Dev nD)

/-- The node features. -/
abbrev X : Cert.GraphLayers.SX.Idx → EReal := m ((c : Thread nD τ).loc main_arg0)
/-- The adjacency matrix. -/
abbrev G : Cert.GraphLayers.SG.Idx → EReal := m ((c : Thread nD τ).loc main_arg1)
/-- The first weight matrix. -/
abbrev W1 : Cert.GraphLayers.SW1.Idx → EReal := m ((c : Thread nD τ).loc main_arg2)
/-- The first bias. -/
abbrev B1 : Cert.GraphLayers.SB1.Idx → EReal := m ((c : Thread nD τ).loc main_arg3)
/-- The second weight matrix. -/
abbrev W2 : Cert.GraphLayers.SW2.Idx → EReal := m ((c : Thread nD τ).loc main_arg4)
/-- The second bias. -/
abbrev B2 : Cert.GraphLayers.SB2.Idx → EReal := m ((c : Thread nD τ).loc main_arg5)

/-- The first point's product is the projected features. -/
theorem proj_all (l : Fin 10000) (j : Fin 128) :
    projAll m c (ix2 l j) = Cert.GraphLayers.proj (X m c) (W1 m c) l j := by
  unfold projAll
  refine (proj_stage (iblk m c 0 firstPoint) (iblk m c 1 firstPoint) l j).trans ?_
  unfold Cert.GraphLayers.proj
  exact Finset.sum_congr rfl fun d _ => congrArg₂ (· * ·) (blk_x m c firstPoint l d) (blk_w1 m c firstPoint d j)

/-- The blocks of the first half, put together, are the second projection. -/
theorem mix_all (k : Fin 10000) (q : Fin 64) :
    mixAll m c (ix2 k q) = Cert.GraphLayers.mixed (X m c) (G m c) (W1 m c) (B1 m c) (W2 m c) k q := by
  unfold mixAll
  show mixRows m c ⟨k.val / 400, blockOf_lt k⟩ (ix2 (⟨k.val % 400, Nat.mod_lt _ (by decide)⟩ : Fin 400) q) = _
  unfold mixRows
  refine (mixed_stage (iblk m c 5 ⟨k.val / 400, blockOf_lt k⟩) (projAll m c) (iblk m c 2 ⟨k.val / 400, blockOf_lt k⟩)
    (iblk m c 3 ⟨k.val / 400, blockOf_lt k⟩) ⟨k.val % 400, Nat.mod_lt _ (by decide)⟩ q).trans ?_
  unfold Cert.GraphLayers.mixed Cert.GraphLayers.hidden
  refine Finset.sum_congr rfl fun j _ => ?_
  refine congrArg₂ (· * ·) (congrArg₂ max (congrArg₂ (· + ·) (Finset.sum_congr rfl fun l _ => ?_)
    (blk_b1 m c ⟨k.val / 400, blockOf_lt k⟩ j)) rfl) (blk_w2 m c ⟨k.val / 400, blockOf_lt k⟩ j q)
  refine congrArg₂ (· * ·) (blk_g m c ⟨k.val / 400, blockOf_lt k⟩ ⟨k.val % 400, Nat.mod_lt _ (by decide)⟩ l k ?_) (proj_all m c l j)
  have hk : k.val < 10000 := k.isLt
  show k.val = 400 * ((k.val / 400) % 25) + k.val % 400
  omega

/-- A point of the second half computes its 400 rows of the result. -/
theorem out_rows (t : Fin cfg0.N) (ht : 25 ≤ t.val) (p : Fin 400) (q : Fin 64) (r : Fin 10000)
    (hr : r.val = 400 * (t.val - 25) + p.val) :
    outRows m c t (ix2 p q)
      = Cert.GraphLayers.outAt (X m c) (G m c) (W1 m c) (B1 m c) (W2 m c) (B2 m c) r q := by
  unfold outRows
  refine (out_stage (iblk m c 5 t) (mixAll m c) (iblk m c 4 t) p q).trans ?_
  unfold Cert.GraphLayers.outAt
  refine congrArg₂ (· + ·) (Finset.sum_congr rfl fun k _ => ?_) (blk_b2 m c t q)
  refine congrArg₂ (· * ·) (blk_g m c t p k r ?_) (mix_all m c k q)
  have hN : cfg0.N = 50 := N_0
  have ht' : t.val < cfg0.N := t.isLt
  omega

/-- The projected features, as arrays. -/
theorem projAll_eq : projAll m c = Cert.GraphLayers.projArr (X m c) (W1 m c) := by
  funext i
  obtain ⟨l, j, rfl⟩ : ∃ (l : Fin 10000) (j : Fin 128), i = ix2 l j := ⟨i 0, i 1, eq_ix2 i⟩
  exact proj_all m c l j

/-- The second projection, as arrays. -/
theorem mixAll_eq : mixAll m c = Cert.GraphLayers.mixedArr (X m c) (G m c) (W1 m c) (B1 m c) (W2 m c) := by
  funext i
  obtain ⟨k, q, rfl⟩ : ∃ (k : Fin 10000) (q : Fin 64), i = ix2 k q := ⟨i 0, i 1, eq_ix2 i⟩
  exact mix_all m c k q

end Cert.KernelIdeal.Reads

end
-- ==== Proof.ResultIdeal.lean ====
/-
  The result array of the fused network after the grid run. Point t of the second half writes back its output block,
  rows 400 · (t − 25) … 400 · (t − 25) + 399 of the array, and that block holds those rows of the network's result;
  the 25 blocks of the second half tile the 10000 rows, so the array ends at the network's result.
-/
import proofs.«160591_g55490977464611_cont_9to1_m_229_22_alg».proof.Proof.LayerRunIdeal
import proofs.«160591_g55490977464611_cont_9to1_m_229_22_alg».proof.Proof.LayerReadsIdeal
import Idealize.ShloMosaic.Lib.Pipeline.Value

set_option maxRecDepth 16384

noncomputable section

namespace Cert.KernelIdeal.Result

open Cert.KernelIdeal Cert.KernelIdeal.Gen Cert.KernelIdeal.Carried Cert.KernelIdeal.Reads
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The output window's block at a point of the second half: block t − 25 of rows, the one block of columns. -/
theorem out_index : ∀ t : Fin cfg0.N, 25 ≤ t.val → win0_6.index t (0 : Fin 2) = t.val - 25 ∧ win0_6.index t (1 : Fin 2) = 0 :=
  (by decide +kernel : ∀ t : Fin grid0.N, 25 ≤ t.val → win0_6.index t (0 : Fin 2) = t.val - 25 ∧ win0_6.index t (1 : Fin 2) = 0)

/-- The network's result of the argument arrays as the program is launched with them. -/
abbrev result (c : Dev nD) : S10000x64.Idx → EReal :=
  Cert.GraphLayers.out (X m c) (G m c) (W1 m c) (B1 m c) (W2 m c) (B2 m c)

/-- What a point of the second half writes back is its block of the network's result. -/
theorem flushed_eq (c : Dev nD) (t : Fin cfg0.N) (ht : 25 ≤ t.val) :
    (dats m 0 c).flushed 6 t = ((cfg0.win 6).blk t).view.read (Elt Ideal) (result m c) := by
  show (cfg0.win 6).cut (grid0.coords t) ((dats m 0 c).after 6 t) = _
  rw [after_6]
  funext j
  obtain ⟨p, q, rfl⟩ : ∃ (p : Fin 400) (q : Fin 64), j = ix2 p q := ⟨j 0, j 1, eq_ix2 j⟩
  obtain ⟨e0, e1⟩ := out_index t ht
  have hp : p.val < 400 := p.isLt
  have hN : t.val < 50 := lt_of_lt_of_eq t.isLt (show cfg0.N = 50 from N_0)
  refine (out_rows m c t ht p q ⟨400 * (t.val - 25) + p.val, by omega⟩ rfl).trans ?_
  rw [View.read_apply]
  show _ = Cert.GraphLayers.outAt _ _ _ _ _ _ ((((cfg0.win 6).blk t).view.emb (ix2 p q)) 0) ((((cfg0.win 6).blk t).view.emb (ix2 p q)) 1)
  congr 1 <;> apply Fin.ext
  · show 400 * (t.val - 25) + p.val = win0_6.index t (0 : Fin 2) * 400 + 1 * p.val
    omega
  · show q.val = win0_6.index t (1 : Fin 2) * 64 + 1 * q.val
    omega

/-- An index of the array is in point t's block iff each coordinate is in the block's range on its axis. -/
theorem mem_blk (t : Fin cfg0.N) (i : S10000x64.Idx) :
    i ∈ ((cfg0.win 6).blk t).view.set ↔ ∀ a : Fin 2, win0_6.index t a * S400x64.size a ≤ (i a).val ∧ (i a).val < win0_6.index t a * S400x64.size a + S400x64.size a := by
  show i ∈ ((View.whole main_v2).slice (win0_6.rect t)).set ↔ _
  rw [View.set_slice_whole, Rect.mem_set_unit]
  exact Iff.rfl

/-- Row r of the array is written back by point 25 + r / 400. -/
theorem cover (i : S10000x64.Idx) :
    ∃ t : Fin cfg0.N, (cfg0.win 6).flush t = true ∧ i ∈ ((cfg0.win 6).blk t).view.set := by
  have hi0 : (i 0).val < 10000 := (i 0).isLt
  have hi1 : (i 1).val < 64 := (i 1).isLt
  have hN : cfg0.N = 50 := N_0
  have hlt : 25 + (i 0).val / 400 < cfg0.N := by omega
  have h25 : 25 ≤ (⟨25 + (i 0).val / 400, hlt⟩ : Fin cfg0.N).val := Nat.le_add_right _ _
  obtain ⟨e0, e1⟩ := out_index ⟨25 + (i 0).val / 400, hlt⟩ h25
  refine ⟨⟨25 + (i 0).val / 400, hlt⟩, out_written_back _ h25, ?_⟩
  rw [mem_blk]
  intro a
  match a with
  | ⟨0, _⟩ =>
    show win0_6.index ⟨25 + (i 0).val / 400, hlt⟩ (0 : Fin 2) * 400 ≤ (i 0).val ∧ (i 0).val < win0_6.index ⟨25 + (i 0).val / 400, hlt⟩ (0 : Fin 2) * 400 + 400
    rw [e0]
    show (25 + (i 0).val / 400 - 25) * 400 ≤ (i 0).val ∧ (i 0).val < (25 + (i 0).val / 400 - 25) * 400 + 400
    omega
  | ⟨1, _⟩ =>
    show win0_6.index ⟨25 + (i 0).val / 400, hlt⟩ (1 : Fin 2) * 64 ≤ (i 1).val ∧ (i 1).val < win0_6.index ⟨25 + (i 0).val / 400, hlt⟩ (1 : Fin 2) * 64 + 64
    rw [e1]
    omega

/-- The array after the run is the network's result. -/
theorem final (c : Dev nD) : (dats m 0 c).arrAt 6 cfg0.N = result m c :=
  (dats m 0 c).arrAt_eq_of_cover 6 (result m c)
    (fun t hf => flushed_eq m c t (by
      by_contra h
      have := out_kept t (by omega)
      rw [this] at hf
      exact Bool.false_ne_true hf))
    (cover)

/-- The run: every weakly fair execution terminates with the result array at the network's result of the arguments,
    the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h c).1 6).trans (final m c),
      ((h c).1 0).trans (((dats m 0 c).arrAt_in 0 rfl _).trans ((A_eq m c 0).trans (V_main_arg0 m c))),
      ((h c).1 5).trans (((dats m 0 c).arrAt_in 5 rfl _).trans ((A_eq m c 5).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c),
      ((h c).1 3).trans (((dats m 0 c).arrAt_in 3 rfl _).trans ((A_eq m c 3).trans (V_main_arg4 m c))),
      ((h c).2 main_arg5 (Pipeline.mem_restRefs_of main_arg5 (by decide) (by decide))).trans (V_main_arg5 m c)⟩)
    (run_main m ρ)

end Cert.KernelIdeal.Result

end
-- ==== Proof.RefLayers.lean ====
import proofs.«160591_g55490977464611_cont_9to1_m_229_22_alg».proof.Proof.Gen.ReferenceIdeal.Read
import proofs.«160591_g55490977464611_cont_9to1_m_229_22_alg».proof.Proof.GraphLayers
import proofs.«160591_g55490977464611_cont_9to1_m_229_22_alg».proof.Proof.LibPlainDot

/-
  The reference program computes the two propagation layers. Its operations are read one at a time at an entry:
  the four products are sums over the contracted coordinate, the two bias vectors are broadcast along the rows, the
  rectifier is the maximum with a broadcast zero. Entry by entry these are the four stages of the specification.
-/

noncomputable section

namespace Cert.RefLayers

open Idealize.ShloMosaic Idealize.ShloMosaic.ValueIdx Cert.ReferenceIdeal Cert.ReferenceIdeal.Read

/-- A rank-2 index with known coordinates is the index built from them. -/
theorem idx2_eq {n0 n1 : Nat} (f : (⟨2, ![n0, n1]⟩ : Shape).Idx) (a : Fin n0) (b : Fin n1) (h0 : f 0 = a) (h1 : f 1 = b) :
    f = ix2 a b := by
  subst h0 h1
  exact eq_ix2 f

/-- A rank-1 index with a known coordinate is the index built from it. -/
theorem idx1_eq {n : Nat} (f : (⟨1, ![n]⟩ : Shape).Idx) (a : Fin n) (h0 : f 0 = a) : f = ix1 a := by
  subst h0
  exact eq_ix1 f

variable (x0 : (⟨S10000x256, .f32⟩ : BufTy).Contents (Elt Ideal)) (x1 : (⟨S10000x10000, .f32⟩ : BufTy).Contents (Elt Ideal))
  (x2 : (⟨S256x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-- The first product at (l, j) is the projected features. -/
theorem proj_read (l : Fin 10000) (j : Fin 128) :
    val_main_v0 (F := Ideal) x0 x2 (ix2 l j) = Cert.GraphLayers.proj x0 x2 l j := by
  rw [val_main_v0_apply]
  unfold Cert.GraphLayers.proj
  refine Finset.sum_congr rfl fun d _ => ?_
  rw [idx2_eq (lidx_main_v0 (ix2 l j) d) l d rfl rfl, idx2_eq (ridx_main_v0 (ix2 l j) d) d j rfl rfl]

/-- The first bias, broadcast to a row and then along the rows, reads b1 at the column. -/
theorem bias1_read (k : Fin 10000) (j : Fin 128) : val_main_v3 (F := Ideal) x3 (ix2 k j) = x3 (ix1 j) := by
  rw [val_main_v3_apply, val_main_v2_apply]
  exact congrArg x3 (idx1_eq _ j rfl)

/-- The rectified first layer at (k, j). -/
theorem hidden_read (k : Fin 10000) (j : Fin 128) :
    val_main_v5 (F := Ideal) x0 x1 x2 x3 (ix2 k j) = Cert.GraphLayers.hidden x0 x1 x2 x3 k j := by
  rw [val_main_v5_apply, val_main_v4_apply, val_main_v1_apply, bias1_read, val_main_call0_v0_apply, val_main_call0_cst_apply]
  unfold Cert.GraphLayers.hidden
  refine congrArg₂ max (congrArg (· + x3 (ix1 j)) (Finset.sum_congr rfl fun l _ => ?_)) Ideal.ofBits_zero_f32
  rw [idx2_eq (lidx_main_v1 (ix2 k j) l) k l rfl rfl, idx2_eq (ridx_main_v1 (ix2 k j) l) l j rfl rfl, proj_read]

/-- The second projection at (k, c). -/
theorem mixed_read (k : Fin 10000) (c : Fin 64) :
    val_main_v6 (F := Ideal) x0 x1 x2 x3 x4 (ix2 k c) = Cert.GraphLayers.mixed x0 x1 x2 x3 x4 k c := by
  rw [val_main_v6_apply]
  unfold Cert.GraphLayers.mixed
  refine Finset.sum_congr rfl fun j _ => ?_
  rw [idx2_eq (lidx_main_v6 (ix2 k c) j) k j rfl rfl, idx2_eq (ridx_main_v6 (ix2 k c) j) j c rfl rfl, hidden_read]

/-- The second bias, broadcast to a row and then along the rows, reads b2 at the column. -/
theorem bias2_read (r : Fin 10000) (c : Fin 64) : val_main_v9 (F := Ideal) x5 (ix2 r c) = x5 (ix1 c) := by
  rw [val_main_v9_apply, val_main_v8_apply]
  exact congrArg x5 (idx1_eq _ c rfl)

/-- The result at (r, c). -/
theorem out_read (r : Fin 10000) (c : Fin 64) :
    val_main_v10 (F := Ideal) x0 x1 x2 x3 x4 x5 (ix2 r c) = Cert.GraphLayers.outAt x0 x1 x2 x3 x4 x5 r c := by
  rw [val_main_v10_apply, val_main_v7_apply, bias2_read]
  unfold Cert.GraphLayers.outAt
  refine congrArg (· + x5 (ix1 c)) (Finset.sum_congr rfl fun k _ => ?_)
  rw [idx2_eq (lidx_main_v7 (ix2 r c) k) r k rfl rfl, idx2_eq (ridx_main_v7 (ix2 r c) k) k c rfl rfl, mixed_read]

/-- The reference program's result is the specification's array. -/
theorem reference_eq_out :
    Cert.ReferenceIdeal.Read.val_main_v10 (F := Ideal) x0 x1 x2 x3 x4 x5 = Cert.GraphLayers.out x0 x1 x2 x3 x4 x5 := by
  funext i
  obtain ⟨r, c, rfl⟩ : ∃ (r : Fin 10000) (c : Fin 64), i = ix2 r c := ⟨i 0, i 1, eq_ix2 i⟩
  exact out_read x0 x1 x2 x3 x4 x5 r c

end Cert.RefLayers

end
-- ==== Proof.lean ====
/-
  A two-layer network on a dense graph, out = G · (relu (G · (x · W1) + b1) · W2) + b2, computed by one fused grid of
  50 points against the plain four-stage reference, on the extended reals.
  The fused program keeps two arrays between grid points: the projected features x · W1, filled by the first point, and
  the second projection relu (…) · W2, filled 400 rows at a time by the first 25 points; the last 25 points each
  produce 400 rows of the result from one block of rows of G and the completed second projection. Read at the ideal
  values (a change of float format is the identity, every product a plain sum) each stage is the reference's stage
  at every entry, in the same order of operations, so the two results are equal with no law of arithmetic between
  them and no use of the inputs' finiteness.
  The frames of the two printed kernels are the grid run of the fused body, proved once for any float instance: the
  body's three cases (the first point, the rest of the first half, the second half) run from the windows' blocks and
  the two carried arrays to the next point's. The reference's frame is its run with the result dropped. No
  idealization rewrite was applied, so the fourth claim is trivial.
-/
import proofs.«160591_g55490977464611_cont_9to1_m_229_22_alg».proof.Defs
import proofs.«160591_g55490977464611_cont_9to1_m_229_22_alg».proof.Proof.Gen.Kernel
import proofs.«160591_g55490977464611_cont_9to1_m_229_22_alg».proof.Proof.Gen.KernelIdeal
import proofs.«160591_g55490977464611_cont_9to1_m_229_22_alg».proof.Proof.Gen.ReferenceIdeal
import proofs.«160591_g55490977464611_cont_9to1_m_229_22_alg».proof.Proof.Gen.Pre_finite_inputs
import proofs.«160591_g55490977464611_cont_9to1_m_229_22_alg».proof.Proof.Gen.ReferenceIdeal.Run
import proofs.«160591_g55490977464611_cont_9to1_m_229_22_alg».proof.Proof.Gen.ReferenceIdeal.Read
import proofs.«160591_g55490977464611_cont_9to1_m_229_22_alg».proof.Proof.LayerRunWord
import proofs.«160591_g55490977464611_cont_9to1_m_229_22_alg».proof.Proof.ResultIdeal
import proofs.«160591_g55490977464611_cont_9to1_m_229_22_alg».proof.Proof.RefLayers
import Idealize.ShloMosaic.Adequacy
import Idealize.ShloMosaic.Init

noncomputable section

namespace Cert.Proof

open Idealize.ShloMosaic Idealize.ShloMosaic.TcCoe Idealize.SL.Sem

/-- The printed kernel runs and leaves its arguments as they were: the grid run at the word-level values. -/
theorem frame_kernel : Cert.frame_Kernel := fun m ρ _ => Cert.Kernel.Carried.frame m ρ

/-- The same run at the ideal values. -/
theorem frame_ideal : Cert.frame_KernelIdeal := fun m ρ _ => Cert.KernelIdeal.Carried.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten between the printed kernel and its idealization. -/
theorem preserves : Cert.preserves_Kernel_KernelIdeal := trivial

/-- Both programs end with the network's result of their (agreeing) arguments. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.RefLayers.reference_eq_out, (hagree c).1, (hagree c).2.1,
    (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
